-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v222) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048x32 : Shape := ⟨3, ![1024, 2048, 32]⟩
abbrev S_ : Shape := ⟨0, ![]⟩

class Facts : Prop where
  bcast_S_S1024x2048x32 : S_.BroadcastsInDim S1024x2048x32 (![] : Fin 0 → Fin S1024x2048x32.rank)
  reducesTo_S1024x2048x32_S_d0_1_2 : S1024x2048x32.ReducesTo [0, 1, 2] S_
  h_S_ : 0 < S_.numel

variable [Facts]

def fn {F : FTy → Type} [FloatOps F] (main_arg0 : FVec F S1024x2048x32 .f32) : IVec S_ 1 :=
  let main_v0 : FVec F S1024x2048x32 .f32 := Host.absf main_arg0
  let main_cst : FVec F S_ .f32 := constant S_ .f32 0x7F800000#32
  let main_v1 : FVec F S1024x2048x32 .f32 := broadcastInDim S1024x2048x32 ![] bcast_S_S1024x2048x32 main_cst
  let main_v2 : IVec S1024x2048x32 1 := cmpf .olt main_v0 main_v1
  let main_c : IVec S_ 1 := constantI S_ 1 1#1
  let main_v3 : IVec S_ 1 := (fun x v => Host.reduce IntOp.andi x v reducesTo_S1024x2048x32_S_d0_1_2 h_S_) main_v2 main_c
  main_v3
-- ==== Kernel.lean ====
abbrev S1024x2048x32 : Shape := ⟨3, ![1024, 2048, 32]⟩
abbrev S1024x2048x5 : Shape := ⟨3, ![1024, 2048, 5]⟩
abbrev S32x64x32 : Shape := ⟨3, ![32, 64, 32]⟩
abbrev S32x64x5 : Shape := ⟨3, ![32, 64, 5]⟩
abbrev S32x64x8 : Shape := ⟨3, ![32, 64, 8]⟩
abbrev S32x64x23 : Shape := ⟨3, ![32, 64, 23]⟩
abbrev S32x64x1 : Shape := ⟨3, ![32, 64, 1]⟩

abbrev nBuf : Space → Nat
  | .hbm => 2
  | .vmem => 4
  | .smem => 0
  | _ => 0

abbrev bufTy : (tb : Table) → Fin (tcTables nBuf tb) → BufTy
  | .hbm, ⟨0, _⟩ => ⟨S1024x2048x32, .f32⟩
  | .hbm, ⟨1, _⟩ => ⟨S1024x2048x5, .f32⟩
  | .local _ .vmem, ⟨0, _⟩ => ⟨S32x64x32, .f32⟩
  | .local _ .vmem, ⟨1, _⟩ => ⟨S32x64x32, .f32⟩
  | .local _ .vmem, ⟨2, _⟩ => ⟨S32x64x5, .f32⟩
  | .local _ .vmem, ⟨3, _⟩ => ⟨S32x64x5, .f32⟩
  | _, _ => ⟨S1024x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S32x64x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x64x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S32x64x32_S32x64x32_0_0_0 : ∀ a, (![0, 0, 0] : Fin 3 → Nat) a + S32x64x32.size a ≤ S32x64x32.size a
  h_S32x64x32 : 0 < S32x64x32.numel
  slices_S32x64x32_o0_0_1_S32x64x8 : S32x64x32.Slices ![0, 0, 1] S32x64x8
  slices_S32x64x32_o0_0_9_S32x64x23 : S32x64x32.Slices ![0, 0, 9] S32x64x23
  slices_S32x64x8_o0_0_7_S32x64x1 : S32x64x8.Slices ![0, 0, 7] S32x64x1
  slices_S32x64x8_o0_0_6_S32x64x1 : S32x64x8.Slices ![0, 0, 6] S32x64x1
  slices_S32x64x8_o0_0_5_S32x64x1 : S32x64x8.Slices ![0, 0, 5] S32x64x1
  slices_S32x64x8_o0_0_4_S32x64x1 : S32x64x8.Slices ![0, 0, 4] S32x64x1
  slices_S32x64x8_o0_0_3_S32x64x1 : S32x64x8.Slices ![0, 0, 3] S32x64x1
  slices_S32x64x8_o0_0_2_S32x64x1 : S32x64x8.Slices ![0, 0, 2] S32x64x1
  slices_S32x64x8_o0_0_1_S32x64x1 : S32x64x8.Slices ![0, 0, 1] S32x64x1
  slices_S32x64x8_o0_0_0_S32x64x1 : S32x64x8.Slices ![0, 0, 0] S32x64x1
  slices_S32x64x23_o0_0_0_S32x64x1 : S32x64x23.Slices ![0, 0, 0] S32x64x1
  slices_S32x64x23_o0_0_1_S32x64x1 : S32x64x23.Slices ![0, 0, 1] S32x64x1
  slices_S32x64x23_o0_0_2_S32x64x1 : S32x64x23.Slices ![0, 0, 2] S32x64x1
  slices_S32x64x23_o0_0_3_S32x64x1 : S32x64x23.Slices ![0, 0, 3] S32x64x1
  concatenates_S32x64x1_S32x64x1_S32x64x1_S32x64x1_S32x64x1_S32x64x5_d2 : Shape.Concatenates [S32x64x1, S32x64x1, S32x64x1, S32x64x1, S32x64x1] S32x64x5 2
  inb_S32x64x5_S32x64x5_0_0_0 : ∀ a, (![0, 0, 0] : Fin 3 → Nat) a + S32x64x5.size a ≤ S32x64x5.size a
  h_S32x64x5 : 0 < S32x64x5.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x32.size a ≤ S1024x2048x32.size a
  hwx0_0 : ∀ i : grid0.Coords, EltTy.bits .f32 = 32 ∨ (Rect.block (s := S1024x2048x32) S32x64x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x64x5.size a ≤ S1024x2048x5.size a
  hwx0_1 : ∀ i : grid0.Coords, EltTy.bits .f32 = 32 ∨ (Rect.block (s := S1024x2048x5) S32x64x5.size (cc0_transform_1 i) (hinb0_1 i)).WholeWords (EltTy.packing .f32)

variable [Facts₀]

abbrev win0_0 : Pipeline.Window sig grid0 :=
  Pipeline.Window.ofSpec (Memref.whole main_arg0) S32x64x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x64x5.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x2048x32 : Shape := ⟨3, ![1024, 2048, 32]⟩
abbrev S1024x2048x8 : Shape := ⟨3, ![1024, 2048, 8]⟩
abbrev S1024x2048x23 : Shape := ⟨3, ![1024, 2048, 23]⟩
abbrev S_ : Shape := ⟨0, ![]⟩
abbrev S1 : Shape := ⟨1, ![1]⟩
abbrev S1024x2048 : Shape := ⟨2, ![1024, 2048]⟩
abbrev S1024x2048x1 : Shape := ⟨3, ![1024, 2048, 1]⟩
abbrev S1024x2048x5 : Shape := ⟨3, ![1024, 2048, 5]⟩

abbrev nBuf : Space → Nat
  | .hbm => 252
  | .vmem => 0
  | .smem => 0
  | _ => 0

abbrev hbmTy0_0 (i : Nat) : BufTy := match i % 128 with
  | 0 => ⟨S1024x2048x32, .f32⟩
  | 1 => ⟨S1024x2048x8, .f32⟩
  | 2 => ⟨S1024x2048x23, .f32⟩
  | 3 => ⟨S_, .f32⟩
  | 4 => ⟨S1024x2048x8, .f32⟩
  | 5 => ⟨S_, .i32⟩
  | 6 => ⟨S1, .i32⟩
  | 7 => ⟨S_, .f32⟩
  | 8 => ⟨S1024x2048, .f32⟩
  | 9 => ⟨S1024x2048x8, .f32⟩
  | 10 => ⟨S_, .f32⟩
  | 11 => ⟨S1024x2048x1, .f32⟩
  | 12 => ⟨S1024x2048x1, .f32⟩
  | 13 => ⟨S1024x2048x1, .f32⟩
  | 14 => ⟨S1024x2048x1, .f32⟩
  | 15 => ⟨S_, .f32⟩
  | 16 => ⟨S1024x2048x1, .f32⟩
  | 17 => ⟨S1024x2048x1, .f32⟩
  | 18 => ⟨S1024x2048x1, .f32⟩
  | 19 => ⟨S1024x2048x1, .f32⟩
  | 20 => ⟨S1024x2048x1, .f32⟩
  | 21 => ⟨S_, .f32⟩
  | 22 => ⟨S1024x2048x1, .f32⟩
  | 23 => ⟨S1024x2048x1, .f32⟩
  | 24 => ⟨S1024x2048x1, .f32⟩
  | 25 => ⟨S1024x2048x1, .f32⟩
  | 26 => ⟨S1024x2048x1, .f32⟩
  | 27 => ⟨S1024x2048x1, .f32⟩
  | 28 => ⟨S1024x2048x1, .f32⟩
  | 29 => ⟨S1024x2048x1, .f32⟩
  | 30 => ⟨S1024x2048x1, .f32⟩
  | 31 => ⟨S1024x2048x1, .f32⟩
  | 32 => ⟨S1024x2048x1, .f32⟩
  | 33 => ⟨S1024x2048x1, .f32⟩
  | 34 => ⟨S_, .f32⟩
  | 35 => ⟨S1024x2048x1, .f32⟩
  | 36 => ⟨S1024x2048x1, .f32⟩
  | 37 => ⟨S1024x2048x1, .f32⟩
  | 38 => ⟨S1024x2048x1, .f32⟩
  | 39 => ⟨S1024x2048x1, .f32⟩
  | 40 => ⟨S_, .f32⟩
  | 41 => ⟨S1024x2048x1, .f32⟩
  | 42 => ⟨S1024x2048x1, .f32⟩
  | 43 => ⟨S1024x2048x1, .f32⟩
  | 44 => ⟨S1024x2048x1, .f32⟩
  | 45 => ⟨S1024x2048x1, .f32⟩
  | 46 => ⟨S1024x2048x1, .f32⟩
  | 47 => ⟨S1024x2048x1, .f32⟩
  | 48 => ⟨S1024x2048x1, .f32⟩
  | 49 => ⟨S1024x2048x1, .f32⟩
  | 50 => ⟨S1024x2048x1, .f32⟩
  | 51 => ⟨S1024x2048x1, .f32⟩
  | 52 => ⟨S1024x2048x1, .f32⟩
  | 53 => ⟨S_, .f32⟩
  | 54 => ⟨S1024x2048x1, .f32⟩
  | 55 => ⟨S1024x2048x1, .f32⟩
  | 56 => ⟨S1024x2048x1, .f32⟩
  | 57 => ⟨S1024x2048x1, .f32⟩
  | 58 => ⟨S1024x2048x1, .f32⟩
  | 59 => ⟨S_, .f32⟩
  | 60 => ⟨S1024x2048x1, .f32⟩
  | 61 => ⟨S1024x2048x1, .f32⟩
  | 62 => ⟨S1024x2048x1, .f32⟩
  | 63 => ⟨S1024x2048x1, .f32⟩
  | 64 => ⟨S1024x2048x1, .f32⟩
  | 65 => ⟨S1024x2048x1, .f32⟩
  | 66 => ⟨S1024x2048x1, .f32⟩
  | 67 => ⟨S1024x2048x1, .f32⟩
  | 68 => ⟨S1024x2048x1, .f32⟩
  | 69 => ⟨S1024x2048x1, .f32⟩
  | 70 => ⟨S1024x2048x1, .f32⟩
  | 71 => ⟨S1024x2048x1, .f32⟩
  | 72 => ⟨S_, .f32⟩
  | 73 => ⟨S1024x2048x1, .f32⟩
  | 74 => ⟨S1024x2048x1, .f32⟩
  | 75 => ⟨S1024x2048x1, .f32⟩
  | 76 => ⟨S1024x2048x1, .f32⟩
  | 77 => ⟨S1024x2048x1, .f32⟩
  | 78 => ⟨S_, .f32⟩
  | 79 => ⟨S1024x2048x1, .f32⟩
  | 80 => ⟨S1024x2048x1, .f32⟩
  | 81 => ⟨S1024x2048x1, .f32⟩
  | 82 => ⟨S1024x2048x1, .f32⟩
  | 83 => ⟨S1024x2048x1, .f32⟩
  | 84 => ⟨S1024x2048x1, .f32⟩
  | 85 => ⟨S1024x2048x1, .f32⟩
  | 86 => ⟨S1024x2048x1, .f32⟩
  | 87 => ⟨S1024x2048x1, .f32⟩
  | 88 => ⟨S1024x2048x1, .f32⟩
  | 89 => ⟨S1024x2048x1, .f32⟩
  | 90 => ⟨S1024x2048x1, .f32⟩
  | 91 => ⟨S_, .f32⟩
  | 92 => ⟨S1024x2048x1, .f32⟩
  | 93 => ⟨S1024x2048x1, .f32⟩
  | 94 => ⟨S1024x2048x1, .f32⟩
  | 95 => ⟨S1024x2048x1, .f32⟩
  | 96 => ⟨S1024x2048x1, .f32⟩
  | 97 => ⟨S_, .f32⟩
  | 98 => ⟨S1024x2048x1, .f32⟩
  | 99 => ⟨S1024x2048x1, .f32⟩
  | 100 => ⟨S1024x2048x1, .f32⟩
  | 101 => ⟨S1024x2048x1, .f32⟩
  | 102 => ⟨S1024x2048x1, .f32⟩
  | 103 => ⟨S1024x2048x1, .f32⟩
  | 104 => ⟨S1024x2048x1, .f32⟩
  | 105 => ⟨S1024x2048x1, .f32⟩
  | 106 => ⟨S1024x2048x1, .f32⟩
  | 107 => ⟨S1024x2048x1, .f32⟩
  | 108 => ⟨S1024x2048x1, .f32⟩
  | 109 => ⟨S1024x2048x1, .f32⟩
  | 110 => ⟨S_, .f32⟩
  | 111 => ⟨S1024x2048x1, .f32⟩
  | 112 => ⟨S1024x2048x1, .f32⟩
  | 113 => ⟨S1024x2048x1, .f32⟩
  | 114 => ⟨S1024x2048x1, .f32⟩
  | 115 => ⟨S1024x2048x1, .f32⟩
  | 116 => ⟨S_, .f32⟩
  | 117 => ⟨S1024x2048x1, .f32⟩
  | 118 => ⟨S1024x2048x1, .f32⟩
  | 119 => ⟨S1024x2048x1, .f32⟩
  | 120 => ⟨S1024x2048x1, .f32⟩
  | 121 => ⟨S1024x2048x1, .f32⟩
  | 122 => ⟨S1024x2048x1, .f32⟩
  | 123 => ⟨S1024x2048x1, .f32⟩
  | 124 => ⟨S1024x2048x1, .f32⟩
  | 125 => ⟨S1024x2048x1, .f32⟩
  | 126 => ⟨S1024x2048x1, .f32⟩
  | 127 => ⟨S1024x2048x1, .f32⟩
  | _ => ⟨S1024x2048x32, .f32⟩

abbrev hbmTy0_1 (i : Nat) : BufTy := match i % 128 with
  | 0 => ⟨S1024x2048x1, .f32⟩
  | 1 => ⟨S_, .f32⟩
  | 2 => ⟨S1024x2048x1, .f32⟩
  | 3 => ⟨S1024x2048x1, .f32⟩
  | 4 => ⟨S1024x2048x1, .f32⟩
  | 5 => ⟨S1024x2048x1, .f32⟩
  | 6 => ⟨S1024x2048x1, .f32⟩
  | 7 => ⟨S_, .f32⟩
  | 8 => ⟨S1024x2048x1, .f32⟩
  | 9 => ⟨S1024x2048x1, .f32⟩
  | 10 => ⟨S1024x2048x1, .f32⟩
  | 11 => ⟨S1024x2048x1, .f32⟩
  | 12 => ⟨S1024x2048x1, .f32⟩
  | 13 => ⟨S1024x2048x1, .f32⟩
  | 14 => ⟨S1024x2048x1, .f32⟩
  | 15 => ⟨S1024x2048x1, .f32⟩
  | 16 => ⟨S1024x2048x1, .f32⟩
  | 17 => ⟨S1024x2048x1, .f32⟩
  | 18 => ⟨S1024x2048x1, .f32⟩
  | 19 => ⟨S1024x2048x1, .f32⟩
  | 20 => ⟨S_, .f32⟩
  | 21 => ⟨S1024x2048x1, .f32⟩
  | 22 => ⟨S1024x2048x1, .f32⟩
  | 23 => ⟨S1024x2048x1, .f32⟩
  | 24 => ⟨S1024x2048x1, .f32⟩
  | 25 => ⟨S1024x2048x1, .f32⟩
  | 26 => ⟨S_, .f32⟩
  | 27 => ⟨S1024x2048x1, .f32⟩
  | 28 => ⟨S1024x2048x1, .f32⟩
  | 29 => ⟨S1024x2048x1, .f32⟩
  | 30 => ⟨S1024x2048x1, .f32⟩
  | 31 => ⟨S1024x2048x1, .f32⟩
  | 32 => ⟨S1024x2048x1, .f32⟩
  | 33 => ⟨S1024x2048x1, .f32⟩
  | 34 => ⟨S1024x2048x1, .f32⟩
  | 35 => ⟨S1024x2048x1, .f32⟩
  | 36 => ⟨S_, .f32⟩
  | 37 => ⟨S1024x2048x1, .f32⟩
  | 38 => ⟨S1024x2048x1, .f32⟩
  | 39 => ⟨S_, .f32⟩
  | 40 => ⟨S1024x2048x1, .f32⟩
  | 41 => ⟨S1024x2048x1, .f32⟩
  | 42 => ⟨S_, .f32⟩
  | 43 => ⟨S1024x2048x1, .f32⟩
  | 44 => ⟨S1024x2048x1, .f32⟩
  | 45 => ⟨S_, .f32⟩
  | 46 => ⟨S1024x2048x1, .f32⟩
  | 47 => ⟨S1024x2048x1, .f32⟩
  | 48 => ⟨S_, .f32⟩
  | 49 => ⟨S1024x2048x1, .f32⟩
  | 50 => ⟨S1024x2048x1, .f32⟩
  | 51 => ⟨S_, .f32⟩
  | 52 => ⟨S1024x2048x1, .f32⟩
  | 53 => ⟨S1024x2048x1, .f32⟩
  | 54 => ⟨S_, .f32⟩
  | 55 => ⟨S1024x2048x1, .f32⟩
  | 56 => ⟨S1024x2048x1, .f32⟩
  | 57 => ⟨S_, .f32⟩
  | 58 => ⟨S1024x2048x1, .f32⟩
  | 59 => ⟨S1024x2048x1, .f32⟩
  | 60 => ⟨S1024x2048x1, .f32⟩
  | 61 => ⟨S1024x2048x1, .f32⟩
  | 62 => ⟨S1024x2048x1, .f32⟩
  | 63 => ⟨S1024x2048x1, .f32⟩
  | 64 => ⟨S1024x2048x1, .f32⟩
  | 65 => ⟨S1024x2048x1, .f32⟩
  | 66 => ⟨S1024x2048x1, .f32⟩
  | 67 => ⟨S1024x2048x1, .f32⟩
  | 68 => ⟨S1024x2048x1, .f32⟩
  | 69 => ⟨S1024x2048x1, .f32⟩
  | 70 => ⟨S1024x2048x1, .f32⟩
  | 71 => ⟨S1024x2048x1, .f32⟩
  | 72 => ⟨S1024x2048x1, .f32⟩
  | 73 => ⟨S1024x2048x1, .f32⟩
  | 74 => ⟨S1024x2048x1, .f32⟩
  | 75 => ⟨S1024x2048x1, .f32⟩
  | 76 => ⟨S1024x2048x1, .f32⟩
  | 77 => ⟨S1024x2048x1, .f32⟩
  | 78 => ⟨S1024x2048x1, .f32⟩
  | 79 => ⟨S1024x2048x1, .f32⟩
  | 80 => ⟨S1024x2048x1, .f32⟩
  | 81 => ⟨S1024x2048x1, .f32⟩
  | 82 => ⟨S1024x2048x1, .f32⟩
  | 83 => ⟨S1024x2048x1, .f32⟩
  | 84 => ⟨S1024x2048x1, .f32⟩
  | 85 => ⟨S1024x2048x1, .f32⟩
  | 86 => ⟨S1024x2048x1, .f32⟩
  | 87 => ⟨S1024x2048x1, .f32⟩
  | 88 => ⟨S1024x2048x1, .f32⟩
  | 89 => ⟨S1024x2048x1, .f32⟩
  | 90 => ⟨S1024x2048x1, .f32⟩
  | 91 => ⟨S1024x2048x1, .f32⟩
  | 92 => ⟨S1024x2048x1, .f32⟩
  | 93 => ⟨S1024x2048x1, .f32⟩
  | 94 => ⟨S1024x2048x1, .f32⟩
  | 95 => ⟨S1024x2048x1, .f32⟩
  | 96 => ⟨S1024x2048x1, .f32⟩
  | 97 => ⟨S1024x2048x1, .f32⟩
  | 98 => ⟨S1024x2048x1, .f32⟩
  | 99 => ⟨S1024x2048x1, .f32⟩
  | 100 => ⟨S1024x2048x1, .f32⟩
  | 101 => ⟨S1024x2048x1, .f32⟩
  | 102 => ⟨S1024x2048x1, .f32⟩
  | 103 => ⟨S1024x2048x1, .f32⟩
  | 104 => ⟨S1024x2048x1, .f32⟩
  | 105 => ⟨S1024x2048x1, .f32⟩
  | 106 => ⟨S1024x2048x1, .f32⟩
  | 107 => ⟨S1024x2048x1, .f32⟩
  | 108 => ⟨S1024x2048x1, .f32⟩
  | 109 => ⟨S1024x2048x1, .f32⟩
  | 110 => ⟨S1024x2048x1, .f32⟩
  | 111 => ⟨S1024x2048x1, .f32⟩
  | 112 => ⟨S1024x2048x1, .f32⟩
  | 113 => ⟨S1024x2048x1, .f32⟩
  | 114 => ⟨S1024x2048x1, .f32⟩
  | 115 => ⟨S1024x2048x1, .f32⟩
  | 116 => ⟨S1024x2048x1, .f32⟩
  | 117 => ⟨S1024x2048x1, .f32⟩
  | 118 => ⟨S1024x2048x1, .f32⟩
  | 119 => ⟨S1024x2048x1, .f32⟩
  | 120 => ⟨S1024x2048x1, .f32⟩
  | 121 => ⟨S1024x2048x1, .f32⟩
  | 122 => ⟨S1024x2048x1, .f32⟩
  | 123 => ⟨S1024x2048x5, .f32⟩
  | _ => ⟨S1024x2048x32, .f32⟩

abbrev hbmTy (i : Nat) : BufTy := match i / 128 with
  | 0 => hbmTy0_0 i
  | 1 => hbmTy0_1 i
  | _ => ⟨S1024x2048x32, .f32⟩

abbrev bufTy : (tb : Table) → Fin (tcTables nBuf tb) → BufTy
  | .hbm, ⟨i, _⟩ => hbmTy i
  | _, _ => ⟨S1024x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_5 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_6 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_7 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_8 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_9 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_cst_10 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_11 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_cst_12 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_cst_13 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_cst_14 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_cst_15 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_cst_16 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_cst_17 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_cst_18 : Ref sig .tc := ⟨.hbm, 164, rfl⟩
abbrev main_v143 : Ref sig .tc := ⟨.hbm, 165, rfl⟩
abbrev main_v144 : Ref sig .tc := ⟨.hbm, 166, rfl⟩
abbrev main_cst_19 : Ref sig .tc := ⟨.hbm, 167, rfl⟩
abbrev main_v145 : Ref sig .tc := ⟨.hbm, 168, rfl⟩
abbrev main_v146 : Ref sig .tc := ⟨.hbm, 169, rfl⟩
abbrev main_cst_20 : Ref sig .tc := ⟨.hbm, 170, rfl⟩
abbrev main_v147 : Ref sig .tc := ⟨.hbm, 171, rfl⟩
abbrev main_v148 : Ref sig .tc := ⟨.hbm, 172, rfl⟩
abbrev main_cst_21 : Ref sig .tc := ⟨.hbm, 173, rfl⟩
abbrev main_v149 : Ref sig .tc := ⟨.hbm, 174, rfl⟩
abbrev main_v150 : Ref sig .tc := ⟨.hbm, 175, rfl⟩
abbrev main_cst_22 : Ref sig .tc := ⟨.hbm, 176, rfl⟩
abbrev main_v151 : Ref sig .tc := ⟨.hbm, 177, rfl⟩
abbrev main_v152 : Ref sig .tc := ⟨.hbm, 178, rfl⟩
abbrev main_cst_23 : Ref sig .tc := ⟨.hbm, 179, rfl⟩
abbrev main_v153 : Ref sig .tc := ⟨.hbm, 180, rfl⟩
abbrev main_v154 : Ref sig .tc := ⟨.hbm, 181, rfl⟩
abbrev main_cst_24 : Ref sig .tc := ⟨.hbm, 182, rfl⟩
abbrev main_v155 : Ref sig .tc := ⟨.hbm, 183, rfl⟩
abbrev main_v156 : Ref sig .tc := ⟨.hbm, 184, rfl⟩
abbrev main_cst_25 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩

abbrev nD : Nat := 1
abbrev τ : Topo := Topo.v7x

variable {F : FTy → Type} [FloatOps F]

class Facts₀ : Prop where
  slices_S1024x2048x32_S1024x2048x8_0_0_1 : S1024x2048x32.Slices ![0, 0, 1] S1024x2048x8
  slices_S1024x2048x32_S1024x2048x23_0_0_9 : S1024x2048x32.Slices ![0, 0, 9] S1024x2048x23
  bcast_S_S1024x2048x8 : S_.BroadcastsInDim S1024x2048x8 (![] : Fin 0 → Fin S1024x2048x8.rank)
  bcast_S_S1 : S_.BroadcastsInDim S1 (![] : Fin 0 → Fin S1.rank)
  bcast_S_S1024x2048 : S_.BroadcastsInDim S1024x2048 (![] : Fin 0 → Fin S1024x2048.rank)
  bcast_S_S1024x2048x1 : S_.BroadcastsInDim S1024x2048x1 (![] : Fin 0 → Fin S1024x2048x1.rank)
  slices_S1024x2048x8_S1024x2048x1_0_0_7 : S1024x2048x8.Slices ![0, 0, 7] S1024x2048x1
  slices_S1024x2048x8_S1024x2048x1_0_0_6 : S1024x2048x8.Slices ![0, 0, 6] S1024x2048x1
  slices_S1024x2048x8_S1024x2048x1_0_0_5 : S1024x2048x8.Slices ![0, 0, 5] S1024x2048x1
  slices_S1024x2048x8_S1024x2048x1_0_0_4 : S1024x2048x8.Slices ![0, 0, 4] S1024x2048x1
  slices_S1024x2048x8_S1024x2048x1_0_0_3 : S1024x2048x8.Slices ![0, 0, 3] S1024x2048x1
  slices_S1024x2048x8_S1024x2048x1_0_0_2 : S1024x2048x8.Slices ![0, 0, 2] S1024x2048x1
  slices_S1024x2048x8_S1024x2048x1_0_0_1 : S1024x2048x8.Slices ![0, 0, 1] S1024x2048x1
  slices_S1024x2048x8_S1024x2048x1_0_0_0 : S1024x2048x8.Slices ![0, 0, 0] S1024x2048x1
  slices_S1024x2048x23_S1024x2048x1_0_0_0 : S1024x2048x23.Slices ![0, 0, 0] S1024x2048x1
  slices_S1024x2048x23_S1024x2048x1_0_0_1 : S1024x2048x23.Slices ![0, 0, 1] S1024x2048x1
  slices_S1024x2048x23_S1024x2048x1_0_0_2 : S1024x2048x23.Slices ![0, 0, 2] S1024x2048x1
  slices_S1024x2048x23_S1024x2048x1_0_0_3 : S1024x2048x23.Slices ![0, 0, 3] S1024x2048x1
  concatenates_S1024x2048x1_S1024x2048x1_S1024x2048x1_S1024x2048x1_S1024x2048x1_S1024x2048x5_d2 : Shape.Concatenates [S1024x2048x1, S1024x2048x1, S1024x2048x1, S1024x2048x1, S1024x2048x1] S1024x2048x5 2
  scatter_S1024x2048x8_S1_S1024x2048_01_2_2_0_wf : ScatterDims.WF S1024x2048x8 S1 S1024x2048 [0, 1] [2] [2] 0

variable [Facts₀]

def scatter_S1024x2048x8_S1_S1024x2048_01_2_2_0 : ScatterDims S1024x2048x8 S1 S1024x2048 where
  updateWindowDims := [0, 1]
  insertedWindowDims := [2]
  scatterDimsToOperandDims := [2]
  indexVectorDim := 0
  wf := scatter_S1024x2048x8_S1_S1024x2048_01_2_2_0_wf

class Facts : Prop extends Facts₀ where

variable [Facts]
-- ==== Proof.Gates.lean ====
import Idealize.ShloMosaic.PureOps

/-!
# The gate network: the low five bits of a float's exponent-shifted mantissa, in spiking logic

A float32 word arrives as 32 numbers, one per bit, most significant first: the sign, the eight exponent bits
`e 0 … e 7`, the 23 mantissa bits `m 0 …`. On numbers that are 0 or 1 the gates below are Boolean logic
(`1 - a` is NOT, `a * b` AND, `a + b - a * b` OR, `a + b - 2 * a * b` XOR); here they are just the polynomials,
over any float instance, with the operations in the order both programs apply them.

The network subtracts 127 from the exponent with a ripple adder — bit by bit from the least significant,
adding the bits `n` of the complement of 127 with an incoming carry of one —, recognises the shifts 0 … 4 from
the difference's bits, and routes the implicit leading one and the top four mantissa bits to the five output
bits accordingly. The bits `n` are a parameter: one program writes them as constants, the other slices them off
a mask array.
-/

namespace Cert.SpikeLogic

open Idealize.ShloMosaic

variable {F : FTy → Type} [FloatOps F]

/-- The constants 2, 1 and 0, as their float32 words. -/
def two : F .f32 := FloatOps.ofBits .f32 0x40000000#32
def one : F .f32 := FloatOps.ofBits .f32 0x3F800000#32
def zero : F .f32 := FloatOps.ofBits .f32 0x00000000#32

/-- NOT: `1 - a`. -/
def gnot (a : F .f32) : F .f32 := FloatOps.subf one a
/-- AND: `a * b`. -/
def gand (a b : F .f32) : F .f32 := FloatOps.mulf a b
/-- OR: `(a + b) - a * b`. -/
def gor (a b : F .f32) : F .f32 := FloatOps.subf (FloatOps.addf a b) (FloatOps.mulf a b)
/-- XOR: `(a + b) - (2 * a) * b`. -/
def gxor (a b : F .f32) : F .f32 := FloatOps.subf (FloatOps.addf a b) (FloatOps.mulf (FloatOps.mulf two a) b)

/-- A full adder's sum bit: `(a XOR b) XOR c`. -/
def sumBit (a b c : F .f32) : F .f32 := gxor (gxor a b) c
/-- A full adder's carry: `(a AND b) OR ((a XOR b) AND c)`. -/
def carryBit (a b c : F .f32) : F .f32 := gor (gand a b) (gand (gxor a b) c)

/-- The five output bits, most significant first, from the exponent bits `e`, the addend's bits `n` and the top
    four mantissa bits `m`. `s k` is bit `k` (most significant first) of `e + n + 1`, the carry rippling up from bit 7;
    `sh k` says the difference is exactly `k` (its high five bits clear, its low three spelling `k`); output bit `b`
    (least significant = 0) is the OR, over the shifts `k ≥ b`, of `sh k` alone (`k = b`: the leading one) or
    `sh k AND m (k - 1 - b)`. -/
def lowBits (e n : Fin 8 → F .f32) (m : Fin 4 → F .f32) : Fin 5 → F .f32 :=
  let c7 := carryBit (e 7) (n 7) one
  let s7 := sumBit (e 7) (n 7) one
  let c6 := carryBit (e 6) (n 6) c7
  let s6 := sumBit (e 6) (n 6) c7
  let c5 := carryBit (e 5) (n 5) c6
  let s5 := sumBit (e 5) (n 5) c6
  let c4 := carryBit (e 4) (n 4) c5
  let s4 := sumBit (e 4) (n 4) c5
  let c3 := carryBit (e 3) (n 3) c4
  let s3 := sumBit (e 3) (n 3) c4
  let c2 := carryBit (e 2) (n 2) c3
  let s2 := sumBit (e 2) (n 2) c3
  let c1 := carryBit (e 1) (n 1) c2
  let s1 := sumBit (e 1) (n 1) c2
  let s0 := sumBit (e 0) (n 0) c1
  let hi := gand (gand (gand (gand (gnot s0) (gnot s1)) (gnot s2)) (gnot s3)) (gnot s4)
  let sh0 := gand hi (gand (gnot s5) (gand (gnot s6) (gnot s7)))
  let sh1 := gand hi (gand (gnot s5) (gand (gnot s6) s7))
  let sh2 := gand hi (gand (gnot s5) (gand s6 (gnot s7)))
  let sh3 := gand hi (gand (gnot s5) (gand s6 s7))
  let sh4 := gand hi (gand s5 (gand (gnot s6) (gnot s7)))
  let b0 := gor (gor (gor (gor sh0 (gand sh1 (m 0))) (gand sh2 (m 1))) (gand sh3 (m 2))) (gand sh4 (m 3))
  let b1 := gor (gor (gor sh1 (gand sh2 (m 0))) (gand sh3 (m 1))) (gand sh4 (m 2))
  let b2 := gor (gor sh2 (gand sh3 (m 0))) (gand sh4 (m 1))
  let b3 := gor sh3 (gand sh4 (m 0))
  ![sh4, b3, b2, b1, b0]

/-- The bits of the eight-bit complement of 127: only the most significant is set. -/
def not127 : Fin 8 → F .f32 := fun k => if k = 0 then one else zero

end Cert.SpikeLogic
-- ==== Proof.KernelPlanes.lean ====
import proofs.«112993_j76312978916072_2_alg».proof.Proof.Gen.KernelIdeal.Frame
import proofs.«112993_j76312978916072_2_alg».proof.Proof.Gates

/-!
# The kernel body's five stored planes are the network's output planes

The body loads one `[32, 64, 32]` block `x0` of bit planes, cuts the exponent band (planes 1 … 8) and the mantissa
band (planes 9 … 31) off it, and runs the gate network on single planes — each an `[32, 64, 1]` array, every gate a
pointwise operation, the bits of the complement of 127 as constant planes. So each of the five planes it
concatenates is, element by element, one output bit of the network on the planes' elements: the body's payload
unfolds to exactly the network's operations in the network's order.
-/

set_option maxRecDepth 16384

noncomputable section

namespace Cert.KernelIdeal.Hand

open Cert.KernelIdeal Cert.KernelIdeal.Gen Cert.SpikeLogic
open Idealize.ShloMosaic

variable {F : FTy → Type} [FloatOps F]

/-- The exponent band of a block: planes 1 … 8. -/
abbrev eBand (x0 : Vec F S32x64x32 .f32) : FVec F S32x64x8 .f32 :=
  extractStridedSlice S32x64x8 ![0, 0, 1] x0 slices_S32x64x32_o0_0_1_S32x64x8
/-- The mantissa band of a block: planes 9 … 31. -/
abbrev mBand (x0 : Vec F S32x64x32 .f32) : FVec F S32x64x23 .f32 :=
  extractStridedSlice S32x64x23 ![0, 0, 9] x0 slices_S32x64x32_o0_0_9_S32x64x23

/-- The eight exponent planes of a block, most significant first. -/
def ePlanes (x0 : Vec F S32x64x32 .f32) : Fin 8 → FVec F S32x64x1 .f32 :=
  ![extractStridedSlice S32x64x1 ![0, 0, 0] (eBand x0) slices_S32x64x8_o0_0_0_S32x64x1,
    extractStridedSlice S32x64x1 ![0, 0, 1] (eBand x0) slices_S32x64x8_o0_0_1_S32x64x1,
    extractStridedSlice S32x64x1 ![0, 0, 2] (eBand x0) slices_S32x64x8_o0_0_2_S32x64x1,
    extractStridedSlice S32x64x1 ![0, 0, 3] (eBand x0) slices_S32x64x8_o0_0_3_S32x64x1,
    extractStridedSlice S32x64x1 ![0, 0, 4] (eBand x0) slices_S32x64x8_o0_0_4_S32x64x1,
    extractStridedSlice S32x64x1 ![0, 0, 5] (eBand x0) slices_S32x64x8_o0_0_5_S32x64x1,
    extractStridedSlice S32x64x1 ![0, 0, 6] (eBand x0) slices_S32x64x8_o0_0_6_S32x64x1,
    extractStridedSlice S32x64x1 ![0, 0, 7] (eBand x0) slices_S32x64x8_o0_0_7_S32x64x1]

/-- The top four mantissa planes of a block. -/
def mPlanes (x0 : Vec F S32x64x32 .f32) : Fin 4 → FVec F S32x64x1 .f32 :=
  ![extractStridedSlice S32x64x1 ![0, 0, 0] (mBand x0) slices_S32x64x23_o0_0_0_S32x64x1,
    extractStridedSlice S32x64x1 ![0, 0, 1] (mBand x0) slices_S32x64x23_o0_0_1_S32x64x1,
    extractStridedSlice S32x64x1 ![0, 0, 2] (mBand x0) slices_S32x64x23_o0_0_2_S32x64x1,
    extractStridedSlice S32x64x1 ![0, 0, 3] (mBand x0) slices_S32x64x23_o0_0_3_S32x64x1]

/-- The five planes the body stores side by side: plane `n` is output bit `n` of the network, element by element,
    the addend's bits the constants of the complement of 127. -/
def outPlanes (x0 : Vec F S32x64x32 .f32) : Fin 5 → FVec F S32x64x1 .f32 :=
  fun n i => lowBits (fun k => ePlanes x0 k i) not127 (fun k => mPlanes x0 k i) n

set_option maxHeartbeats 4000000 in
/-- The five planes the body concatenates ARE the network's output planes: the same operations in the same order,
    plane by plane (the payload's definitions unfold to them). -/
theorem payload_eq (x0 : Vec F S32x64x32 .f32) :
    k0_pay1 (k0_pay44 (k0_pay19 (k0_pay14 x0) (k0_pay16 x0) (k0_pay17 x0) (k0_pay18 (F := F))) (k0_pay35 (k0_pay23 (k0_pay2 x0) (k0_pay5 (F := F)) (k0_pay14 x0) (k0_pay15 x0) (k0_pay16 x0))) (k0_pay37 (k0_pay13 x0)) (k0_pay38 (k0_pay9 x0)) (k0_pay39 (k0_pay2 x0) (k0_pay4 (F := F)) (k0_pay5 (F := F)) (k0_pay27 (k0_pay2 x0) (k0_pay5 (F := F)) (k0_pay14 x0) (k0_pay15 x0) (k0_pay16 x0)) (k0_pay31 (k0_pay2 x0) (k0_pay5 (F := F)) (k0_pay14 x0) (k0_pay15 x0) (k0_pay16 x0)) (k0_pay32 (k0_pay2 x0) (k0_pay5 (F := F))) (k0_pay33 (k0_pay2 x0) (k0_pay5 (F := F)) (k0_pay14 x0) (k0_pay15 x0) (k0_pay16 x0)) (k0_pay34 (k0_pay2 x0) (k0_pay5 (F := F)) (k0_pay14 x0) (k0_pay15 x0) (k0_pay16 x0)))) (k0_pay48 (k0_pay3 x0) (k0_pay9 x0) (k0_pay13 x0) (k0_pay19 (k0_pay14 x0) (k0_pay16 x0) (k0_pay17 x0) (k0_pay18 (F := F))) (k0_pay35 (k0_pay23 (k0_pay2 x0) (k0_pay5 (F := F)) (k0_pay14 x0) (k0_pay15 x0) (k0_pay16 x0))) (k0_pay36 (k0_pay19 (k0_pay14 x0) (k0_pay16 x0) (k0_pay17 x0) (k0_pay18 (F := F)))) (k0_pay37 (k0_pay13 x0)) (k0_pay38 (k0_pay9 x0)) (k0_pay39 (k0_pay2 x0) (k0_pay4 (F := F)) (k0_pay5 (F := F)) (k0_pay27 (k0_pay2 x0) (k0_pay5 (F := F)) (k0_pay14 x0) (k0_pay15 x0) (k0_pay16 x0)) (k0_pay31 (k0_pay2 x0) (k0_pay5 (F := F)) (k0_pay14 x0) (k0_pay15 x0) (k0_pay16 x0)) (k0_pay32 (k0_pay2 x0) (k0_pay5 (F := F))) (k0_pay33 (k0_pay2 x0) (k0_pay5 (F := F)) (k0_pay14 x0) (k0_pay15 x0) (k0_pay16 x0)) (k0_pay34 (k0_pay2 x0) (k0_pay5 (F := F)) (k0_pay14 x0) (k0_pay15 x0) (k0_pay16 x0)))) (k0_pay49 (k0_pay3 x0) (k0_pay9 x0) (k0_pay13 x0) (k0_pay19 (k0_pay14 x0) (k0_pay16 x0) (k0_pay17 x0) (k0_pay18 (F := F))) (k0_pay35 (k0_pay23 (k0_pay2 x0) (k0_pay5 (F := F)) (k0_pay14 x0) (k0_pay15 x0) (k0_pay16 x0))) (k0_pay36 (k0_pay19 (k0_pay14 x0) (k0_pay16 x0) (k0_pay17 x0) (k0_pay18 (F := F)))) (k0_pay37 (k0_pay13 x0)) (k0_pay38 (k0_pay9 x0)) (k0_pay39 (k0_pay2 x0) (k0_pay4 (F := F)) (k0_pay5 (F := F)) (k0_pay27 (k0_pay2 x0) (k0_pay5 (F := F)) (k0_pay14 x0) (k0_pay15 x0) (k0_pay16 x0)) (k0_pay31 (k0_pay2 x0) (k0_pay5 (F := F)) (k0_pay14 x0) (k0_pay15 x0) (k0_pay16 x0)) (k0_pay32 (k0_pay2 x0) (k0_pay5 (F := F))) (k0_pay33 (k0_pay2 x0) (k0_pay5 (F := F)) (k0_pay14 x0) (k0_pay15 x0) (k0_pay16 x0)) (k0_pay34 (k0_pay2 x0) (k0_pay5 (F := F)) (k0_pay14 x0) (k0_pay15 x0) (k0_pay16 x0)))) (k0_pay50 (k0_pay3 x0) (k0_pay9 x0) (k0_pay13 x0) (k0_pay19 (k0_pay14 x0) (k0_pay16 x0) (k0_pay17 x0) (k0_pay18 (F := F))) (k0_pay35 (k0_pay23 (k0_pay2 x0) (k0_pay5 (F := F)) (k0_pay14 x0) (k0_pay15 x0) (k0_pay16 x0))) (k0_pay36 (k0_pay19 (k0_pay14 x0) (k0_pay16 x0) (k0_pay17 x0) (k0_pay18 (F := F)))) (k0_pay37 (k0_pay13 x0)) (k0_pay38 (k0_pay9 x0)) (k0_pay39 (k0_pay2 x0) (k0_pay4 (F := F)) (k0_pay5 (F := F)) (k0_pay27 (k0_pay2 x0) (k0_pay5 (F := F)) (k0_pay14 x0) (k0_pay15 x0) (k0_pay16 x0)) (k0_pay31 (k0_pay2 x0) (k0_pay5 (F := F)) (k0_pay14 x0) (k0_pay15 x0) (k0_pay16 x0)) (k0_pay32 (k0_pay2 x0) (k0_pay5 (F := F))) (k0_pay33 (k0_pay2 x0) (k0_pay5 (F := F)) (k0_pay14 x0) (k0_pay15 x0) (k0_pay16 x0)) (k0_pay34 (k0_pay2 x0) (k0_pay5 (F := F)) (k0_pay14 x0) (k0_pay15 x0) (k0_pay16 x0)))) (k0_pay51 (k0_pay3 x0) (k0_pay9 x0) (k0_pay13 x0) (k0_pay19 (k0_pay14 x0) (k0_pay16 x0) (k0_pay17 x0) (k0_pay18 (F := F))) (k0_pay35 (k0_pay23 (k0_pay2 x0) (k0_pay5 (F := F)) (k0_pay14 x0) (k0_pay15 x0) (k0_pay16 x0))) (k0_pay36 (k0_pay19 (k0_pay14 x0) (k0_pay16 x0) (k0_pay17 x0) (k0_pay18 (F := F)))) (k0_pay37 (k0_pay13 x0)) (k0_pay38 (k0_pay9 x0)) (k0_pay39 (k0_pay2 x0) (k0_pay4 (F := F)) (k0_pay5 (F := F)) (k0_pay27 (k0_pay2 x0) (k0_pay5 (F := F)) (k0_pay14 x0) (k0_pay15 x0) (k0_pay16 x0)) (k0_pay31 (k0_pay2 x0) (k0_pay5 (F := F)) (k0_pay14 x0) (k0_pay15 x0) (k0_pay16 x0)) (k0_pay32 (k0_pay2 x0) (k0_pay5 (F := F))) (k0_pay33 (k0_pay2 x0) (k0_pay5 (F := F)) (k0_pay14 x0) (k0_pay15 x0) (k0_pay16 x0)) (k0_pay34 (k0_pay2 x0) (k0_pay5 (F := F)) (k0_pay14 x0) (k0_pay15 x0) (k0_pay16 x0))))
      = concatenate S32x64x5 2 (List.ofFn fun n : Fin 5 => (⟨S32x64x1, outPlanes x0 n⟩ : (s : Shape) × (s.Idx → F .f32)))
          concatenates_S32x64x1_S32x64x1_S32x64x1_S32x64x1_S32x64x1_S32x64x5_d2 := rfl

end Cert.KernelIdeal.Hand

end
-- ==== Proof.LibPlanes.lean ====
import Idealize.ShloMosaic.PureOps
import Idealize.ShloMosaic.Lib.ValueIdx

/-!
# One plane of the last axis, taken in two steps

A rank-3 array `[A, B, C]` is cut along its last axis twice: first a band of `C₁` planes from plane `o₁`, then ONE
plane of the band, plane `o₂`. What is left is the array's plane `o₁ + o₂`, as an `[A, B, 1]` array.
-/

namespace Idealize.ShloMosaic.Planes

open Idealize.ShloMosaic Idealize.ShloMosaic.ValueIdx

/-- Plane `o₂` of the band of planes from `o₁`, read at `(p, q, 0)`: the array at `(p, q, r)`, where `r = o₁ + o₂`. -/
theorem plane_of_band_apply {α : Type} {A B C C₁ : Nat} (x : (⟨3, ![A, B, C]⟩ : Shape).Idx → α) (o₁ o₂ : Nat)
    (h₁ : (⟨3, ![A, B, C]⟩ : Shape).Slices ![0, 0, o₁] ⟨3, ![A, B, C₁]⟩)
    (h₂ : (⟨3, ![A, B, C₁]⟩ : Shape).Slices ![0, 0, o₂] ⟨3, ![A, B, 1]⟩)
    (p : Fin A) (q : Fin B) (r : Fin C) (hr : r.val = o₁ + o₂) :
    extractStridedSlice ⟨3, ![A, B, 1]⟩ ![0, 0, o₂] (extractStridedSlice ⟨3, ![A, B, C₁]⟩ ![0, 0, o₁] x h₁) h₂
        (ix3 p q (0 : Fin 1))
      = x (ix3 p q r) := by
  unfold extractStridedSlice
  refine congrArg x (funext fun a => Fin.ext ?_)
  match a with
  | ⟨0, _⟩ => show 0 + (0 + p.val) = p.val; omega
  | ⟨1, _⟩ => show 0 + (0 + q.val) = q.val; omega
  | ⟨2, _⟩ => show o₁ + (o₂ + 0) = r.val; omega

end Idealize.ShloMosaic.Planes
-- ==== Proof.KernelBlock.lean ====
import proofs.«112993_j76312978916072_2_alg».proof.Proof.KernelPlanes
import proofs.«112993_j76312978916072_2_alg».proof.Proof.LibPlanes
import Idealize.ShloMosaic.Lib.Pipeline.Value
import Idealize.ShloMosaic.Lib.ValueIdx

/-!
# What the kernel body leaves in its output block

The body stores its five result planes side by side (Proof/KernelPlanes.lean says what each plane is), through the
whole block. So the stored block at `(p, q, c)` is output bit `c` of the network applied to the 32 numbers
`x0 (p, q, ·)` of the loaded block: exponent plane `k` is the block's plane `1 + k`, mantissa plane `k` its plane `9 + k`.
-/

set_option maxRecDepth 16384

noncomputable section

namespace Cert.KernelIdeal.Hand

open Cert.KernelIdeal Cert.KernelIdeal.Gen Cert.SpikeLogic
open Idealize.ShloMosaic Idealize.ShloMosaic.ValueIdx Idealize.ShloMosaic.Planes

variable {F : FTy → Type} [FloatOps F]

theorem hz3 : (![0, 0, 0] : Fin 3 → Nat) = fun _ => 0 := funext fun a => by fin_cases a <;> rfl

/-- Exponent plane `k` at `(p, q, 0)` is the block's plane `1 + k` at `(p, q)`. -/
theorem ePlanes_apply (x0 : Vec F S32x64x32 .f32) (p : Fin 32) (q : Fin 64) (k : Fin 8) :
    ePlanes x0 k (ix3 p q (0 : Fin 1)) = x0 (ix3 p q (⟨1 + k.val, by omega⟩ : Fin 32)) := by
  match k with
  | ⟨0, _⟩ => exact plane_of_band_apply x0 1 0 slices_S32x64x32_o0_0_1_S32x64x8 slices_S32x64x8_o0_0_0_S32x64x1 p q _ rfl
  | ⟨1, _⟩ => exact plane_of_band_apply x0 1 1 slices_S32x64x32_o0_0_1_S32x64x8 slices_S32x64x8_o0_0_1_S32x64x1 p q _ rfl
  | ⟨2, _⟩ => exact plane_of_band_apply x0 1 2 slices_S32x64x32_o0_0_1_S32x64x8 slices_S32x64x8_o0_0_2_S32x64x1 p q _ rfl
  | ⟨3, _⟩ => exact plane_of_band_apply x0 1 3 slices_S32x64x32_o0_0_1_S32x64x8 slices_S32x64x8_o0_0_3_S32x64x1 p q _ rfl
  | ⟨4, _⟩ => exact plane_of_band_apply x0 1 4 slices_S32x64x32_o0_0_1_S32x64x8 slices_S32x64x8_o0_0_4_S32x64x1 p q _ rfl
  | ⟨5, _⟩ => exact plane_of_band_apply x0 1 5 slices_S32x64x32_o0_0_1_S32x64x8 slices_S32x64x8_o0_0_5_S32x64x1 p q _ rfl
  | ⟨6, _⟩ => exact plane_of_band_apply x0 1 6 slices_S32x64x32_o0_0_1_S32x64x8 slices_S32x64x8_o0_0_6_S32x64x1 p q _ rfl
  | ⟨7, _⟩ => exact plane_of_band_apply x0 1 7 slices_S32x64x32_o0_0_1_S32x64x8 slices_S32x64x8_o0_0_7_S32x64x1 p q _ rfl

/-- Mantissa plane `k` at `(p, q, 0)` is the block's plane `9 + k` at `(p, q)`. -/
theorem mPlanes_apply (x0 : Vec F S32x64x32 .f32) (p : Fin 32) (q : Fin 64) (k : Fin 4) :
    mPlanes x0 k (ix3 p q (0 : Fin 1)) = x0 (ix3 p q (⟨9 + k.val, by omega⟩ : Fin 32)) := by
  match k with
  | ⟨0, _⟩ => exact plane_of_band_apply x0 9 0 slices_S32x64x32_o0_0_9_S32x64x23 slices_S32x64x23_o0_0_0_S32x64x1 p q _ rfl
  | ⟨1, _⟩ => exact plane_of_band_apply x0 9 1 slices_S32x64x32_o0_0_9_S32x64x23 slices_S32x64x23_o0_0_1_S32x64x1 p q _ rfl
  | ⟨2, _⟩ => exact plane_of_band_apply x0 9 2 slices_S32x64x32_o0_0_9_S32x64x23 slices_S32x64x23_o0_0_2_S32x64x1 p q _ rfl
  | ⟨3, _⟩ => exact plane_of_band_apply x0 9 3 slices_S32x64x32_o0_0_9_S32x64x23 slices_S32x64x23_o0_0_3_S32x64x1 p q _ rfl

/-- The network on the 32 numbers of a block at `(p, q)`. -/
def rowBits (x0 : Vec F S32x64x32 .f32) (p : Fin 32) (q : Fin 64) : Fin 5 → F .f32 :=
  lowBits (fun k => x0 (ix3 p q (⟨1 + k.val, by omega⟩ : Fin 32))) not127
    (fun k => x0 (ix3 p q (⟨9 + k.val, by omega⟩ : Fin 32)))

/-- THE BLOCK: what the body leaves in the output window's buffer, at `(p, q, c)`, is output bit `c` of the network on
    the loaded block's numbers at `(p, q)`. -/
theorem block_apply (x0 : Vec F S32x64x32 .f32) (p : Fin 32) (q : Fin 64) (c : Fin 5) :
    out0_1 x0 (ix3 p q c) = rowBits x0 p q c := by
  unfold out0_1
  rw [View.canon_unit_zero hz3]
  simp only [View.ld_unit_zero (S := S32x64x32) hz3]
  rw [payload_eq x0]
  refine (concatenate_ofFn_unit_apply (t := S32x64x5) (s₁ := S32x64x1) (2 : Fin 3) (outPlanes x0) _ rfl rfl (ix3 p q c) c rfl
    (ix3 p q (0 : Fin 1)) (fun b hb => by
      match b with
      | ⟨0, _⟩ => rfl
      | ⟨1, _⟩ => rfl
      | ⟨2, _⟩ => exact absurd rfl hb)).trans ?_
  show lowBits (fun k => ePlanes x0 k (ix3 p q (0 : Fin 1))) not127 (fun k => mPlanes x0 k (ix3 p q (0 : Fin 1))) c = _
  unfold rowBits
  simp only [ePlanes_apply, mPlanes_apply]

end Cert.KernelIdeal.Hand

end
-- ==== Proof.Spec.lean ====
import proofs.«112993_j76312978916072_2_alg».proof.Proof.Gates
import Idealize.ShloMosaic.Lib.ValueIdx

/-!
# The result array, as one function of the argument array

The argument is a `[1024, 2048, 32]` array: at each of the `1024 × 2048` positions the 32 bit planes of one float32
word. The result is `[1024, 2048, 5]`: at each position the five output bits of the gate network on that
position's numbers — the exponent bits from planes 1 … 8, the mantissa's top four from planes 9 … 12, the
addend's bits the constants of the complement of 127.
-/

namespace Cert.SpikeLogic

open Idealize.ShloMosaic Idealize.ShloMosaic.ValueIdx

variable {F : FTy → Type} [FloatOps F]

/-- Element `(P, Q, c)` of the result: output bit `c` of the network on the argument's numbers at `(P, Q)`. -/
def extractLow5 (X : (⟨3, ![1024, 2048, 32]⟩ : Shape).Idx → F .f32) : (⟨3, ![1024, 2048, 5]⟩ : Shape).Idx → F .f32 :=
  fun i => lowBits (fun k => X (ix3 (i 0) (i 1) (⟨1 + k.val, by omega⟩ : Fin 32))) not127
    (fun k => X (ix3 (i 0) (i 1) (⟨9 + k.val, by omega⟩ : Fin 32))) (i 2)

end Cert.SpikeLogic
-- ==== Proof.KernelValue.lean ====
import proofs.«112993_j76312978916072_2_alg».proof.Proof.Gen.KernelIdeal.Frame
import proofs.«112993_j76312978916072_2_alg».proof.Proof.KernelBlock
import proofs.«112993_j76312978916072_2_alg».proof.Proof.Spec
import Idealize.ShloMosaic.Lib.Pipeline.Value
import Idealize.ShloMosaic.Lib.ValueIdx

/-!
# The kernel's result array is the network, position by position

The grid has `32 × 32` points; point `t = 32 a + b` works on rows `32 a … 32 a + 31` and columns `64 b … 64 b + 63` of
both arrays, with every plane of the last axis. The output blocks tile the `[1024, 2048, 5]` array, each point
writes back the network applied to its block of the argument, and the network works position by position — so the
array ends holding `extractLow5` of the argument.
-/

set_option maxRecDepth 16384

noncomputable section

namespace Cert.KernelIdeal.Hand

open Cert.KernelIdeal Cert.KernelIdeal.Gen Cert.SpikeLogic
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- Both windows' blocks at point `t`: block row `t / 32`, block column `t % 32`, the whole last axis. -/
theorem idx_facts : ∀ t : Fin cfg0.N,
    win0_0.index t (0 : Fin 3) = t.val / 32 ∧ win0_0.index t (1 : Fin 3) = t.val % 32 ∧ win0_0.index t (2 : Fin 3) = 0
    ∧ win0_1.index t (0 : Fin 3) = t.val / 32 ∧ win0_1.index t (1 : Fin 3) = t.val % 32 ∧ win0_1.index t (2 : Fin 3) = 0 :=
  (by decide +kernel : ∀ t : Fin grid0.N, _)

/-- The stored block at `y` is the network on the argument at the array position under `y`, for a block `x0` that is
    the argument's block with block row `bi` and block column `bj`. -/
theorem block_eq_spec (x0 : Vec F S32x64x32 .f32) (X : S1024x2048x32.Idx → F .f32) (bi bj : Nat)
    (hx : ∀ (p : Fin 32) (q : Fin 64) (r : Fin 32) (P : Fin 1024) (Q : Fin 2048),
      P.val = bi * 32 + p.val → Q.val = bj * 64 + q.val → x0 (ix3 p q r) = X (ix3 P Q r))
    (y : S32x64x5.Idx) (i : S1024x2048x5.Idx)
    (h0 : (i 0).val = bi * 32 + (y 0).val) (h1 : (i 1).val = bj * 64 + (y 1).val) (h2 : (i 2).val = (y 2).val) :
    out0_1 x0 y = extractLow5 X i := by
  obtain ⟨p, q, c, rfl⟩ : ∃ (p : Fin 32) (q : Fin 64) (c : Fin 5), y = ix3 p q c := ⟨y 0, y 1, y 2, eq_ix3 y⟩
  have h0' : (i 0).val = bi * 32 + p.val := h0
  have h1' : (i 1).val = bj * 64 + q.val := h1
  have e2 : i 2 = c := Fin.ext h2
  rw [block_apply]
  unfold rowBits extractLow5
  rw [e2]
  congr 1 <;> funext k <;> exact hx _ _ _ (i 0) (i 1) h0' h1'

/-- WHAT POINT `t` WRITES BACK is block `t` of `extractLow5` of the argument array. -/
theorem flushed_eq (c : Dev nD) (t : Fin cfg0.N) :
    (dats m 0 c).flushed 1 t = ((cfg0.win 1).blk t).view.read (Elt F) (extractLow5 (V m c main_arg0)) := by
  show (cfg0.win 1).cut (grid0.coords t) ((dats m 0 c).after 1 t) = _
  rw [after0_1]
  obtain ⟨e0, e1, e2, f0, f1, f2⟩ := idx_facts t
  funext y
  show out0_1 (iblk m c 0 t) y = extractLow5 (V m c main_arg0) (((cfg0.win 1).blk t).view.emb y)
  refine block_eq_spec (iblk m c 0 t) (V m c main_arg0) (t.val / 32) (t.val % 32) ?_ y _ ?_ ?_ ?_
  · intro p q r P Q hP hQ
    show V m c main_arg0 (((cfg0.win 0).blk t).view.emb (ix3 p q r)) = V m c main_arg0 (ix3 P Q r)
    refine congrArg _ (funext fun a => Fin.ext ?_)
    match a with
    | ⟨0, _⟩ => show win0_0.index t (0 : Fin 3) * 32 + 1 * p.val = P.val; rw [e0, hP]; omega
    | ⟨1, _⟩ => show win0_0.index t (1 : Fin 3) * 64 + 1 * q.val = Q.val; rw [e1, hQ]; omega
    | ⟨2, _⟩ => show win0_0.index t (2 : Fin 3) * 32 + 1 * r.val = r.val; rw [e2]; omega
  · show win0_1.index t (0 : Fin 3) * 32 + 1 * (y 0).val = _; rw [f0]; omega
  · show win0_1.index t (1 : Fin 3) * 64 + 1 * (y 1).val = _; rw [f1]; omega
  · show win0_1.index t (2 : Fin 3) * 5 + 1 * (y 2).val = _; rw [f2]; omega

/-- An index of the result array is in point `t`'s block iff each coordinate is in the block's range on its axis. -/
theorem mem_blk (t : Fin cfg0.N) (i : S1024x2048x5.Idx) :
    i ∈ ((cfg0.win 1).blk t).view.set ↔ ∀ a : Fin 3, win0_1.index t a * S32x64x5.size a ≤ (i a).val
      ∧ (i a).val < win0_1.index t a * S32x64x5.size a + S32x64x5.size a := by
  show i ∈ ((View.whole main_v0).slice (win0_1.rect t)).set ↔ _
  rw [View.set_slice_whole, Rect.mem_set_unit]
  exact Iff.rfl

/-- The output blocks tile the array: position `(P, Q, ·)` is in the block of point `32 (P / 32) + Q / 64`. -/
theorem cover (i : S1024x2048x5.Idx) :
    ∃ t : Fin cfg0.N, (cfg0.win 1).flush t = true ∧ i ∈ ((cfg0.win 1).blk t).view.set := by
  have hi0 : (i 0).val < 1024 := (i 0).isLt
  have hi1 : (i 1).val < 2048 := (i 1).isLt
  have hi2 : (i 2).val < 5 := (i 2).isLt
  have hN : cfg0.N = 1024 := N_0
  let t : Fin cfg0.N := ⟨(i 0).val / 32 * 32 + (i 1).val / 64, by rw [hN]; omega⟩
  have ht : t.val = (i 0).val / 32 * 32 + (i 1).val / 64 := rfl
  obtain ⟨-, -, -, f0, f1, f2⟩ := idx_facts t
  refine ⟨t, flush0_1 t, ?_⟩
  rw [mem_blk]
  intro a
  match a with
  | ⟨0, _⟩ =>
    show win0_1.index t (0 : Fin 3) * 32 ≤ (i 0).val ∧ (i 0).val < win0_1.index t (0 : Fin 3) * 32 + 32
    rw [f0, ht]; omega
  | ⟨1, _⟩ =>
    show win0_1.index t (1 : Fin 3) * 64 ≤ (i 1).val ∧ (i 1).val < win0_1.index t (1 : Fin 3) * 64 + 64
    rw [f1, ht]; omega
  | ⟨2, _⟩ =>
    show win0_1.index t (2 : Fin 3) * 5 ≤ (i 2).val ∧ (i 2).val < win0_1.index t (2 : Fin 3) * 5 + 5
    rw [f2]; omega

/-- THE ARRAY after the run: `extractLow5` of the argument array as launched. -/
theorem final (c : Dev nD) :
    (dats m 0 c).arrAt 1 cfg0.N = extractLow5 (m ((c : Thread nD τ).loc main_arg0)) :=
  (dats m 0 c).arrAt_eq_of_cover 1 (extractLow5 (V m c main_arg0)) (fun t _ => flushed_eq m c t) cover

/-- The run, read: the result array at `extractLow5` of the argument, the argument unchanged. -/
theorem run : θ_run defs (onTc (τ := τ) (main (F := F))) ⟨m, fun _ => 0, ρ⟩ fun r => ∀ c : Dev nD,
      r.2.mem ((c : Thread nD τ).loc main_v0) = extractLow5 (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.Hand

end
-- ==== Proof.GatesStaged.lean ====
import proofs.«112993_j76312978916072_2_alg».proof.Proof.Gates

/-!
# The gate network, stage by stage

The same network as `lowBits`, with every shared intermediate value a definition of its own: the carry out of each
bit of the ripple adder, each bit of the sum, the test that the sum's high five bits are clear, and the five shift
tests. A program that computes the network with NAMED intermediate results is compared with it one stage at a
time, each stage a handful of gates over the stages before it.
-/

namespace Cert.SpikeLogic

open Idealize.ShloMosaic

variable {F : FTy → Type} [FloatOps F]

/-- The carry out of bit `k` of `e + n + 1` (bit 7 the least significant, the incoming carry one). -/
def carryOut7 (e n : Fin 8 → F .f32) : F .f32 := carryBit (e 7) (n 7) one
def carryOut6 (e n : Fin 8 → F .f32) : F .f32 := carryBit (e 6) (n 6) (carryOut7 e n)
def carryOut5 (e n : Fin 8 → F .f32) : F .f32 := carryBit (e 5) (n 5) (carryOut6 e n)
def carryOut4 (e n : Fin 8 → F .f32) : F .f32 := carryBit (e 4) (n 4) (carryOut5 e n)
def carryOut3 (e n : Fin 8 → F .f32) : F .f32 := carryBit (e 3) (n 3) (carryOut4 e n)
def carryOut2 (e n : Fin 8 → F .f32) : F .f32 := carryBit (e 2) (n 2) (carryOut3 e n)
def carryOut1 (e n : Fin 8 → F .f32) : F .f32 := carryBit (e 1) (n 1) (carryOut2 e n)

/-- Bit `k` of `e + n + 1`. -/
def sum7 (e n : Fin 8 → F .f32) : F .f32 := sumBit (e 7) (n 7) one
def sum6 (e n : Fin 8 → F .f32) : F .f32 := sumBit (e 6) (n 6) (carryOut7 e n)
def sum5 (e n : Fin 8 → F .f32) : F .f32 := sumBit (e 5) (n 5) (carryOut6 e n)
def sum4 (e n : Fin 8 → F .f32) : F .f32 := sumBit (e 4) (n 4) (carryOut5 e n)
def sum3 (e n : Fin 8 → F .f32) : F .f32 := sumBit (e 3) (n 3) (carryOut4 e n)
def sum2 (e n : Fin 8 → F .f32) : F .f32 := sumBit (e 2) (n 2) (carryOut3 e n)
def sum1 (e n : Fin 8 → F .f32) : F .f32 := sumBit (e 1) (n 1) (carryOut2 e n)
def sum0 (e n : Fin 8 → F .f32) : F .f32 := sumBit (e 0) (n 0) (carryOut1 e n)

/-- The sum's high five bits are all clear. -/
def hiClear (e n : Fin 8 → F .f32) : F .f32 :=
  gand (gand (gand (gand (gnot (sum0 e n)) (gnot (sum1 e n))) (gnot (sum2 e n))) (gnot (sum3 e n))) (gnot (sum4 e n))

/-- The sum is exactly `k`: its high five bits clear and its low three spelling `k`. -/
def shift0 (e n : Fin 8 → F .f32) : F .f32 := gand (hiClear e n) (gand (gnot (sum5 e n)) (gand (gnot (sum6 e n)) (gnot (sum7 e n))))
def shift1 (e n : Fin 8 → F .f32) : F .f32 := gand (hiClear e n) (gand (gnot (sum5 e n)) (gand (gnot (sum6 e n)) (sum7 e n)))
def shift2 (e n : Fin 8 → F .f32) : F .f32 := gand (hiClear e n) (gand (gnot (sum5 e n)) (gand (sum6 e n) (gnot (sum7 e n))))
def shift3 (e n : Fin 8 → F .f32) : F .f32 := gand (hiClear e n) (gand (gnot (sum5 e n)) (gand (sum6 e n) (sum7 e n)))
def shift4 (e n : Fin 8 → F .f32) : F .f32 := gand (hiClear e n) (gand (sum5 e n) (gand (gnot (sum6 e n)) (gnot (sum7 e n))))

/-- The five output bits, most significant first, over the named stages. -/
def lowBitsStaged (e n : Fin 8 → F .f32) (m : Fin 4 → F .f32) : Fin 5 → F .f32 :=
  ![shift4 e n,
    gor (shift3 e n) (gand (shift4 e n) (m 0)),
    gor (gor (shift2 e n) (gand (shift3 e n) (m 0))) (gand (shift4 e n) (m 1)),
    gor (gor (gor (shift1 e n) (gand (shift2 e n) (m 0))) (gand (shift3 e n) (m 1))) (gand (shift4 e n) (m 2)),
    gor (gor (gor (gor (shift0 e n) (gand (shift1 e n) (m 0))) (gand (shift2 e n) (m 1))) (gand (shift3 e n) (m 2))) (gand (shift4 e n) (m 3))]

/-- The staged network is the network: the stages are `lowBits`'s shared intermediate values, each under its name. -/
theorem lowBits_eq_staged (e n : Fin 8 → F .f32) (m : Fin 4 → F .f32) : lowBits e n m = lowBitsStaged e n m := rfl

/-- A FAMILY OF VALUES THAT SATISFIES THE STAGE EQUATIONS computes the network: if `c7 … c1` are the carries, `s7 s6 s5`
    the sum's low bits, `hi` the test on its high bits (each high bit written out over its carry) and `sh0 … sh4` the
    shift tests, each given by its gates over the values before it, then the routing of `sh0 … sh4` and `m` is
    `lowBits e n m`. -/
theorem lowBits_of_stages (e n : Fin 8 → F .f32) (m : Fin 4 → F .f32)
    {c7 c6 c5 c4 c3 c2 c1 s7 s6 s5 hi sh0 sh1 sh2 sh3 sh4 : F .f32}
    (hc7 : c7 = carryBit (e 7) (n 7) one) (hc6 : c6 = carryBit (e 6) (n 6) c7) (hc5 : c5 = carryBit (e 5) (n 5) c6)
    (hc4 : c4 = carryBit (e 4) (n 4) c5) (hc3 : c3 = carryBit (e 3) (n 3) c4) (hc2 : c2 = carryBit (e 2) (n 2) c3)
    (hc1 : c1 = carryBit (e 1) (n 1) c2)
    (hs7 : s7 = sumBit (e 7) (n 7) one) (hs6 : s6 = sumBit (e 6) (n 6) c7) (hs5 : s5 = sumBit (e 5) (n 5) c6)
    (hhi : hi = gand (gand (gand (gand (gnot (sumBit (e 0) (n 0) c1)) (gnot (sumBit (e 1) (n 1) c2)))
      (gnot (sumBit (e 2) (n 2) c3))) (gnot (sumBit (e 3) (n 3) c4))) (gnot (sumBit (e 4) (n 4) c5)))
    (hsh0 : sh0 = gand hi (gand (gnot s5) (gand (gnot s6) (gnot s7))))
    (hsh1 : sh1 = gand hi (gand (gnot s5) (gand (gnot s6) s7)))
    (hsh2 : sh2 = gand hi (gand (gnot s5) (gand s6 (gnot s7))))
    (hsh3 : sh3 = gand hi (gand (gnot s5) (gand s6 s7)))
    (hsh4 : sh4 = gand hi (gand s5 (gand (gnot s6) (gnot s7)))) :
    (![sh4,
       gor sh3 (gand sh4 (m 0)),
       gor (gor sh2 (gand sh3 (m 0))) (gand sh4 (m 1)),
       gor (gor (gor sh1 (gand sh2 (m 0))) (gand sh3 (m 1))) (gand sh4 (m 2)),
       gor (gor (gor (gor sh0 (gand sh1 (m 0))) (gand sh2 (m 1))) (gand sh3 (m 2))) (gand sh4 (m 3))] : Fin 5 → F .f32)
      = lowBits e n m := by
  rw [lowBits_eq_staged]
  subst hsh0 hsh1 hsh2 hsh3 hsh4 hhi hs7 hs6 hs5 hc1 hc2 hc3 hc4 hc5 hc6 hc7
  rfl

end Cert.SpikeLogic
-- ==== Proof.LibScatterSet.lean ====
import Idealize.ShloMosaic.PureOps
import Idealize.ShloMosaic.Lib.ValueIdx

/-!
# A constant scattered into a constant array, read at an index

`Host.scatter` with the body that returns the update writes, one update index after another in row-major
order, the update's element over the operand's element at the place the update index lands on (or drops
it when that place is outside the operand). When the operand holds one value `a` everywhere and the update
one value `b` everywhere, the order of the writes does not matter: an element of the result is `b` exactly
when SOME update index lands on it, and `a` otherwise. This is the shape of jax's
`zeros_like(e).at[..., k].set(c)`: a mask that is `c` on one slice and `0` elsewhere.
-/

namespace Idealize.ShloMosaic.ScatterSet

open Idealize.ShloMosaic Idealize.ShloMosaic.ValueIdx

variable {s si u : Shape} {α : Type} {w : Nat}

open scoped Classical in
/-- The row-major fold of a set-scatter of the constant `b`, over ANY list of update positions and from any
    starting array `r0`: an element is `b` when some position of the list lands on it, and is `r0`'s otherwise. -/
theorem foldl_set_const {inst : DecidableEq s.Idx} (d : ScatterDims s si u) (idx : IVec si w) (b : α) (l : List (Fin u.numel))
    (r0 : s.Idx → α) (i : s.Idx) :
    (l.foldl (fun r n =>
        match d.resultIdx? (u.rowMajor.symm n) idx with
        | some k => fun i' => @ite α (i' = k) (inst i' k) ((fun (_ : α) (y : α) => y) (r k) ((fun _ => b) (u.rowMajor.symm n))) (r i')
        | none => r) r0) i
      = if ∃ n ∈ l, d.resultIdx? (u.rowMajor.symm n) idx = some i then b else r0 i := by
  induction l generalizing r0 with
  | nil => simp
  | cons n l ih =>
    rw [List.foldl_cons, ih]
    by_cases hl : ∃ m ∈ l, d.resultIdx? (u.rowMajor.symm m) idx = some i
    · have hnl : ∃ m ∈ n :: l, d.resultIdx? (u.rowMajor.symm m) idx = some i := by
        obtain ⟨m, hm, e⟩ := hl; exact ⟨m, List.mem_cons_of_mem _ hm, e⟩
      rw [if_pos hl, if_pos hnl]
    · rw [if_neg hl]
      cases hn : d.resultIdx? (u.rowMajor.symm n) idx with
      | none =>
        have hnl : ¬ ∃ m ∈ n :: l, d.resultIdx? (u.rowMajor.symm m) idx = some i := by
          rintro ⟨m, hm, e⟩
          rcases List.mem_cons.1 hm with rfl | hm
          · rw [hn] at e; exact absurd e (by simp)
          · exact hl ⟨m, hm, e⟩
        rw [if_neg hnl]
      | some k =>
        by_cases hik : i = k
        · have hnl : ∃ m ∈ n :: l, d.resultIdx? (u.rowMajor.symm m) idx = some i :=
            ⟨n, List.mem_cons_self, by rw [hn, hik]⟩
          rw [if_pos hnl]; simp [hik]
        · have hnl : ¬ ∃ m ∈ n :: l, d.resultIdx? (u.rowMajor.symm m) idx = some i := by
            rintro ⟨m, hm, e⟩
            rcases List.mem_cons.1 hm with rfl | hm
            · rw [hn] at e; exact hik (Option.some.inj e).symm
            · exact hl ⟨m, hm, e⟩
          rw [if_neg hnl]; simp [hik]

/-- A set-scatter of the constant `b` into the constant `a`, at an element some update index lands on: `b`. -/
theorem scatter_set_const_of_hit (d : ScatterDims s si u) (idx : IVec si w) (a b : α) (i : s.Idx)
    (h : ∃ j : u.Idx, d.resultIdx? j idx = some i) :
    Host.scatter d (fun _ y => y) (fun _ => a) idx (fun _ => b) i = b := by
  unfold Host.scatter
  refine (foldl_set_const d idx b (List.finRange u.numel) (fun _ => a) i).trans (if_pos ?_)
  obtain ⟨j, hj⟩ := h
  exact ⟨u.rowMajor j, List.mem_finRange _, by rw [Equiv.symm_apply_apply]; exact hj⟩

/-- A set-scatter of the constant `b` into the constant `a`, at an element no update index lands on: `a`. -/
theorem scatter_set_const_of_miss (d : ScatterDims s si u) (idx : IVec si w) (a b : α) (i : s.Idx)
    (h : ∀ j : u.Idx, d.resultIdx? j idx ≠ some i) :
    Host.scatter d (fun _ y => y) (fun _ => a) idx (fun _ => b) i = a := by
  unfold Host.scatter
  refine (foldl_set_const d idx b (List.finRange u.numel) (fun _ => a) i).trans (if_neg ?_)
  rintro ⟨n, _, e⟩
  exact h _ e

/-! ## One slice of the last axis set: `x.at[..., k].set(b)` on a rank-3 array

Operand `[A, B, C]`, ONE scatter index (a vector of length one holding `k`), updates `[A, B]`: both axes of the
update are window axes, the operand's last axis is the inserted one and the one the index addresses. Update
element `(p, q)` lands on operand element `(p, q, k)`. -/

/-- Where update element `j = (p, q)` lands: on `(p, q, k)`, `k` the scatter index (inside the last axis). -/
theorem resultIdx?_lastAxis {A B C w : Nat}
    (wf : ScatterDims.WF (⟨3, ![A, B, C]⟩ : Shape) ⟨1, ![1]⟩ ⟨2, ![A, B]⟩ [0, 1] [2] [2] 0)
    (idx : IVec (⟨1, ![1]⟩ : Shape) w) (k : Fin C) (hidx : ∀ x, (idx x).toInt = (k.val : Int))
    (j : (⟨2, ![A, B]⟩ : Shape).Idx) :
    (⟨[0, 1], [2], [2], 0, wf⟩ : ScatterDims (⟨3, ![A, B, C]⟩ : Shape) ⟨1, ![1]⟩ ⟨2, ![A, B]⟩).resultIdx? j idx
      = some (ix3 (j 0) (j 1) k) := by
  have hstart : ∀ a, ScatterDims.start (⟨[0, 1], [2], [2], 0, wf⟩ : ScatterDims (⟨3, ![A, B, C]⟩ : Shape) ⟨1, ![1]⟩ ⟨2, ![A, B]⟩) j idx a
      = (![0, 0, (k.val : Int)] : Fin 3 → Int) a := by
    intro a
    match a with
    | ⟨0, _⟩ => rfl
    | ⟨1, _⟩ => rfl
    | ⟨2, _⟩ => exact hidx _
  have hwin : ∀ a, ScatterDims.window (⟨[0, 1], [2], [2], 0, wf⟩ : ScatterDims (⟨3, ![A, B, C]⟩ : Shape) ⟨1, ![1]⟩ ⟨2, ![A, B]⟩) j a
      = (![(j 0).val, (j 1).val, 0] : Fin 3 → Nat) a := by
    intro a
    match a with
    | ⟨0, _⟩ => rfl
    | ⟨1, _⟩ => rfl
    | ⟨2, _⟩ => rfl
  unfold ScatterDims.resultIdx?
  have h0 : (j 0).val < A := (j 0).isLt
  have h1 : (j 1).val < B := (j 1).isLt
  have h2 : k.val < C := k.isLt
  rw [dif_pos]
  · congr 1
    funext a
    apply Fin.ext
    show (ScatterDims.start _ j idx a + (ScatterDims.window _ j a : Int)).toNat = _
    rw [hstart, hwin]
    match a with
    | ⟨0, _⟩ => show ((0 : Int) + ((j 0).val : Int)).toNat = (j 0).val; omega
    | ⟨1, _⟩ => show ((0 : Int) + ((j 1).val : Int)).toNat = (j 1).val; omega
    | ⟨2, _⟩ => show ((k.val : Int) + ((0 : Nat) : Int)).toNat = k.val; omega
  · intro a
    rw [hstart, hwin]
    match a with
    | ⟨0, _⟩ =>
      exact ⟨by show (0 : Int) ≤ 0 + ((j 0).val : Int); omega, by show (0 : Int) + ((j 0).val : Int) < (A : Int); omega⟩
    | ⟨1, _⟩ =>
      exact ⟨by show (0 : Int) ≤ 0 + ((j 1).val : Int); omega, by show (0 : Int) + ((j 1).val : Int) < (B : Int); omega⟩
    | ⟨2, _⟩ =>
      exact ⟨by show (0 : Int) ≤ (k.val : Int) + ((0 : Nat) : Int); omega, by show (k.val : Int) + ((0 : Nat) : Int) < (C : Int); omega⟩

/-- The constant `b` set on slice `k` of the last axis of an array holding `a` everywhere, read at `(p, q, c)`:
    `b` on the slice (`c = k`), `a` off it. -/
theorem scatter_lastAxis_const_apply {A B C w : Nat}
    (wf : ScatterDims.WF (⟨3, ![A, B, C]⟩ : Shape) ⟨1, ![1]⟩ ⟨2, ![A, B]⟩ [0, 1] [2] [2] 0)
    (idx : IVec (⟨1, ![1]⟩ : Shape) w) (k : Fin C) (hidx : ∀ x, (idx x).toInt = (k.val : Int))
    (a b : α) (p : Fin A) (q : Fin B) (c : Fin C) :
    Host.scatter (⟨[0, 1], [2], [2], 0, wf⟩ : ScatterDims (⟨3, ![A, B, C]⟩ : Shape) ⟨1, ![1]⟩ ⟨2, ![A, B]⟩)
        (fun _ y => y) (fun _ => a) idx (fun _ => b) (ix3 p q c)
      = if c = k then b else a := by
  by_cases hc : c = k
  · subst hc
    rw [if_pos rfl]
    exact scatter_set_const_of_hit _ idx a b _ ⟨ix2 p q, resultIdx?_lastAxis wf idx c hidx (ix2 p q)⟩
  · rw [if_neg hc]
    refine scatter_set_const_of_miss _ idx a b _ fun j e => hc ?_
    rw [resultIdx?_lastAxis wf idx k hidx j] at e
    exact (congrFun (Option.some.inj e) (2 : Fin 3)).symm

end Idealize.ShloMosaic.ScatterSet
-- ==== Proof.RefPlanes.lean ====
import proofs.«112993_j76312978916072_2_alg».proof.Proof.Gen.ReferenceIdeal.Run
import proofs.«112993_j76312978916072_2_alg».proof.Proof.GatesStaged
import proofs.«112993_j76312978916072_2_alg».proof.Proof.LibPlanes
import proofs.«112993_j76312978916072_2_alg».proof.Proof.LibScatterSet
import Idealize.ShloMosaic.Lib.Pipeline.Value
import Idealize.ShloMosaic.Lib.ValueIdx

/-!
# The reference's five result planes are the network's output planes

The reference runs the gate network on whole `[1024, 2048, 1]` planes: single planes of the exponent band and of
the mantissa band of the argument, and — for the addend's bits — single planes of a MASK array, zeros with ones set
on plane 0 of the last axis. Every gate is a pointwise operation, so at a position each intermediate result of the
run is a gate or two applied to earlier intermediate results there. Followed stage by stage — the carries up the
ripple adder, the sum's low bits, the test on its high bits, the five shift tests, the routing — each of the five
planes it concatenates is, at position `(P, Q)`, one output bit of the network on the argument's numbers at `(P, Q)`,
once the mask's plane `k` is read as the constant `1` (`k = 0`) or `0`.

The mask array is a scatter over two million update positions. It is read through ONE lemma (`mask_apply`) and
otherwise stays a name: every comparison below has it in the same place on both sides.
-/

set_option maxRecDepth 16384

noncomputable section

namespace Cert.ReferenceIdeal.Hand

open Cert.ReferenceIdeal Cert.ReferenceIdeal.Gen Cert.ReferenceIdeal.Value Cert.SpikeLogic
open Idealize.ShloMosaic Idealize.ShloMosaic.ValueIdx Idealize.ShloMosaic.Planes Idealize.ShloMosaic.StableHlo

variable {F : FTy → Type} [FloatOps F]

/-- The five planes the reference concatenates, in order. -/
def pieces (V0 : Valuation τ sig (Elt F)) : Fin 5 → FVec F S1024x2048x1 .f32 :=
  ![res_main_v177 V0,
    subf (addf (res_main_v174 V0) (res_main_v218 V0)) (mulf (res_main_v174 V0) (res_main_v218 V0)),
    subf (addf (res_main_v214 V0) (res_main_v211 V0)) (mulf (res_main_v214 V0) (res_main_v211 V0)),
    subf (addf (res_main_v206 V0) (res_main_v200 V0)) (mulf (res_main_v206 V0) (res_main_v200 V0)),
    subf (addf (res_main_v194 V0) (res_main_v185 V0)) (mulf (res_main_v194 V0) (res_main_v185 V0))]

/-- The exponent bits of the argument's word at `(P, Q)`: planes 1 … 8. -/
def eB (V0 : Valuation τ sig (Elt F)) (P : Fin 1024) (Q : Fin 2048) : Fin 8 → F .f32 :=
  fun k => (V0 (Proc.devRef .tc main_arg0) : S1024x2048x32.Idx → F .f32) (ix3 P Q (⟨1 + k.val, by omega⟩ : Fin 32))
/-- The top four mantissa bits of the argument's word at `(P, Q)`: planes 9 … 12. -/
def mB (V0 : Valuation τ sig (Elt F)) (P : Fin 1024) (Q : Fin 2048) : Fin 4 → F .f32 :=
  fun k => (V0 (Proc.devRef .tc main_arg0) : S1024x2048x32.Idx → F .f32) (ix3 P Q (⟨9 + k.val, by omega⟩ : Fin 32))

/-- The mask array — zeros with ones set on plane 0 of the last axis — read at `(P, Q, k)`: `1` on plane 0, else `0`. -/
theorem mask_apply (V0 : Valuation τ sig (Elt F)) (P : Fin 1024) (Q : Fin 2048) (k : Fin 8) :
    (res_main_v5 V0 : S1024x2048x8.Idx → F .f32) (ix3 P Q k) = not127 k := by
  unfold res_main_v5
  exact ScatterSet.scatter_lastAxis_const_apply (A := 1024) (B := 2048) (C := 8) (w := 32)
    scatter_S1024x2048x8_S1_S1024x2048_01_2_2_0_wf (fun _ => 0#32) (0 : Fin 8) (fun _ => rfl)
    (FloatOps.ofBits .f32 0x00000000#32) (FloatOps.ofBits .f32 0x3F800000#32) P Q k

attribute [local irreducible] res_main_v5

section Stages

variable (V0 : Valuation τ sig (Elt F)) (P : Fin 1024) (Q : Fin 2048)

/-! ## The single planes at `(P, Q, 0)` -/

theorem eLeaf0 : res_main_v126 V0 (ix3 P Q (0 : Fin 1)) = (V0 (Proc.devRef .tc main_arg0) : S1024x2048x32.Idx → F .f32) (ix3 P Q (⟨1, by omega⟩ : Fin 32)) := by
  unfold res_main_v126 res_main_v0
  exact plane_of_band_apply (V0 (Proc.devRef .tc main_arg0) : S1024x2048x32.Idx → F .f32) 1 0 slices_S1024x2048x32_S1024x2048x8_0_0_1 slices_S1024x2048x8_S1024x2048x1_0_0_0 P Q _ rfl
theorem eLeaf1 : res_main_v109 V0 (ix3 P Q (0 : Fin 1)) = (V0 (Proc.devRef .tc main_arg0) : S1024x2048x32.Idx → F .f32) (ix3 P Q (⟨2, by omega⟩ : Fin 32)) := by
  unfold res_main_v109 res_main_v0
  exact plane_of_band_apply (V0 (Proc.devRef .tc main_arg0) : S1024x2048x32.Idx → F .f32) 1 1 slices_S1024x2048x32_S1024x2048x8_0_0_1 slices_S1024x2048x8_S1024x2048x1_0_0_1 P Q _ rfl
theorem eLeaf2 : res_main_v92 V0 (ix3 P Q (0 : Fin 1)) = (V0 (Proc.devRef .tc main_arg0) : S1024x2048x32.Idx → F .f32) (ix3 P Q (⟨3, by omega⟩ : Fin 32)) := by
  unfold res_main_v92 res_main_v0
  exact plane_of_band_apply (V0 (Proc.devRef .tc main_arg0) : S1024x2048x32.Idx → F .f32) 1 2 slices_S1024x2048x32_S1024x2048x8_0_0_1 slices_S1024x2048x8_S1024x2048x1_0_0_2 P Q _ rfl
theorem eLeaf3 : res_main_v75 V0 (ix3 P Q (0 : Fin 1)) = (V0 (Proc.devRef .tc main_arg0) : S1024x2048x32.Idx → F .f32) (ix3 P Q (⟨4, by omega⟩ : Fin 32)) := by
  unfold res_main_v75 res_main_v0
  exact plane_of_band_apply (V0 (Proc.devRef .tc main_arg0) : S1024x2048x32.Idx → F .f32) 1 3 slices_S1024x2048x32_S1024x2048x8_0_0_1 slices_S1024x2048x8_S1024x2048x1_0_0_3 P Q _ rfl
theorem eLeaf4 : res_main_v58 V0 (ix3 P Q (0 : Fin 1)) = (V0 (Proc.devRef .tc main_arg0) : S1024x2048x32.Idx → F .f32) (ix3 P Q (⟨5, by omega⟩ : Fin 32)) := by
  unfold res_main_v58 res_main_v0
  exact plane_of_band_apply (V0 (Proc.devRef .tc main_arg0) : S1024x2048x32.Idx → F .f32) 1 4 slices_S1024x2048x32_S1024x2048x8_0_0_1 slices_S1024x2048x8_S1024x2048x1_0_0_4 P Q _ rfl
theorem eLeaf5 : res_main_v41 V0 (ix3 P Q (0 : Fin 1)) = (V0 (Proc.devRef .tc main_arg0) : S1024x2048x32.Idx → F .f32) (ix3 P Q (⟨6, by omega⟩ : Fin 32)) := by
  unfold res_main_v41 res_main_v0
  exact plane_of_band_apply (V0 (Proc.devRef .tc main_arg0) : S1024x2048x32.Idx → F .f32) 1 5 slices_S1024x2048x32_S1024x2048x8_0_0_1 slices_S1024x2048x8_S1024x2048x1_0_0_5 P Q _ rfl
theorem eLeaf6 : res_main_v24 V0 (ix3 P Q (0 : Fin 1)) = (V0 (Proc.devRef .tc main_arg0) : S1024x2048x32.Idx → F .f32) (ix3 P Q (⟨7, by omega⟩ : Fin 32)) := by
  unfold res_main_v24 res_main_v0
  exact plane_of_band_apply (V0 (Proc.devRef .tc main_arg0) : S1024x2048x32.Idx → F .f32) 1 6 slices_S1024x2048x32_S1024x2048x8_0_0_1 slices_S1024x2048x8_S1024x2048x1_0_0_6 P Q _ rfl
theorem eLeaf7 : res_main_v7 V0 (ix3 P Q (0 : Fin 1)) = (V0 (Proc.devRef .tc main_arg0) : S1024x2048x32.Idx → F .f32) (ix3 P Q (⟨8, by omega⟩ : Fin 32)) := by
  unfold res_main_v7 res_main_v0
  exact plane_of_band_apply (V0 (Proc.devRef .tc main_arg0) : S1024x2048x32.Idx → F .f32) 1 7 slices_S1024x2048x32_S1024x2048x8_0_0_1 slices_S1024x2048x8_S1024x2048x1_0_0_7 P Q _ rfl

theorem nLeaf0 : res_main_v127 V0 (ix3 P Q (0 : Fin 1)) = not127 (0 : Fin 8) := by
  unfold res_main_v127
  exact (extractStridedSlice_apply ![0, 0, 0] (res_main_v5 V0 : S1024x2048x8.Idx → F .f32) slices_S1024x2048x8_S1024x2048x1_0_0_0
    (ix3 P Q (0 : Fin 1)) (ix3 P Q (0 : Fin 8)) (fun a => by
      match a with
      | ⟨0, _⟩ => show P.val = 0 + P.val; omega
      | ⟨1, _⟩ => show Q.val = 0 + Q.val; omega
      | ⟨2, _⟩ => rfl)).trans (mask_apply V0 P Q (0 : Fin 8))
theorem nLeaf1 : res_main_v110 V0 (ix3 P Q (0 : Fin 1)) = not127 (1 : Fin 8) := by
  unfold res_main_v110
  exact (extractStridedSlice_apply ![0, 0, 1] (res_main_v5 V0 : S1024x2048x8.Idx → F .f32) slices_S1024x2048x8_S1024x2048x1_0_0_1
    (ix3 P Q (0 : Fin 1)) (ix3 P Q (1 : Fin 8)) (fun a => by
      match a with
      | ⟨0, _⟩ => show P.val = 0 + P.val; omega
      | ⟨1, _⟩ => show Q.val = 0 + Q.val; omega
      | ⟨2, _⟩ => rfl)).trans (mask_apply V0 P Q (1 : Fin 8))
theorem nLeaf2 : res_main_v93 V0 (ix3 P Q (0 : Fin 1)) = not127 (2 : Fin 8) := by
  unfold res_main_v93
  exact (extractStridedSlice_apply ![0, 0, 2] (res_main_v5 V0 : S1024x2048x8.Idx → F .f32) slices_S1024x2048x8_S1024x2048x1_0_0_2
    (ix3 P Q (0 : Fin 1)) (ix3 P Q (2 : Fin 8)) (fun a => by
      match a with
      | ⟨0, _⟩ => show P.val = 0 + P.val; omega
      | ⟨1, _⟩ => show Q.val = 0 + Q.val; omega
      | ⟨2, _⟩ => rfl)).trans (mask_apply V0 P Q (2 : Fin 8))
theorem nLeaf3 : res_main_v76 V0 (ix3 P Q (0 : Fin 1)) = not127 (3 : Fin 8) := by
  unfold res_main_v76
  exact (extractStridedSlice_apply ![0, 0, 3] (res_main_v5 V0 : S1024x2048x8.Idx → F .f32) slices_S1024x2048x8_S1024x2048x1_0_0_3
    (ix3 P Q (0 : Fin 1)) (ix3 P Q (3 : Fin 8)) (fun a => by
      match a with
      | ⟨0, _⟩ => show P.val = 0 + P.val; omega
      | ⟨1, _⟩ => show Q.val = 0 + Q.val; omega
      | ⟨2, _⟩ => rfl)).trans (mask_apply V0 P Q (3 : Fin 8))
theorem nLeaf4 : res_main_v59 V0 (ix3 P Q (0 : Fin 1)) = not127 (4 : Fin 8) := by
  unfold res_main_v59
  exact (extractStridedSlice_apply ![0, 0, 4] (res_main_v5 V0 : S1024x2048x8.Idx → F .f32) slices_S1024x2048x8_S1024x2048x1_0_0_4
    (ix3 P Q (0 : Fin 1)) (ix3 P Q (4 : Fin 8)) (fun a => by
      match a with
      | ⟨0, _⟩ => show P.val = 0 + P.val; omega
      | ⟨1, _⟩ => show Q.val = 0 + Q.val; omega
      | ⟨2, _⟩ => rfl)).trans (mask_apply V0 P Q (4 : Fin 8))
theorem nLeaf5 : res_main_v42 V0 (ix3 P Q (0 : Fin 1)) = not127 (5 : Fin 8) := by
  unfold res_main_v42
  exact (extractStridedSlice_apply ![0, 0, 5] (res_main_v5 V0 : S1024x2048x8.Idx → F .f32) slices_S1024x2048x8_S1024x2048x1_0_0_5
    (ix3 P Q (0 : Fin 1)) (ix3 P Q (5 : Fin 8)) (fun a => by
      match a with
      | ⟨0, _⟩ => show P.val = 0 + P.val; omega
      | ⟨1, _⟩ => show Q.val = 0 + Q.val; omega
      | ⟨2, _⟩ => rfl)).trans (mask_apply V0 P Q (5 : Fin 8))
theorem nLeaf6 : res_main_v25 V0 (ix3 P Q (0 : Fin 1)) = not127 (6 : Fin 8) := by
  unfold res_main_v25
  exact (extractStridedSlice_apply ![0, 0, 6] (res_main_v5 V0 : S1024x2048x8.Idx → F .f32) slices_S1024x2048x8_S1024x2048x1_0_0_6
    (ix3 P Q (0 : Fin 1)) (ix3 P Q (6 : Fin 8)) (fun a => by
      match a with
      | ⟨0, _⟩ => show P.val = 0 + P.val; omega
      | ⟨1, _⟩ => show Q.val = 0 + Q.val; omega
      | ⟨2, _⟩ => rfl)).trans (mask_apply V0 P Q (6 : Fin 8))
theorem nLeaf7 : res_main_v8 V0 (ix3 P Q (0 : Fin 1)) = not127 (7 : Fin 8) := by
  unfold res_main_v8
  exact (extractStridedSlice_apply ![0, 0, 7] (res_main_v5 V0 : S1024x2048x8.Idx → F .f32) slices_S1024x2048x8_S1024x2048x1_0_0_7
    (ix3 P Q (0 : Fin 1)) (ix3 P Q (7 : Fin 8)) (fun a => by
      match a with
      | ⟨0, _⟩ => show P.val = 0 + P.val; omega
      | ⟨1, _⟩ => show Q.val = 0 + Q.val; omega
      | ⟨2, _⟩ => rfl)).trans (mask_apply V0 P Q (7 : Fin 8))

theorem mLeaf0 : res_main_v178 V0 (ix3 P Q (0 : Fin 1)) = (V0 (Proc.devRef .tc main_arg0) : S1024x2048x32.Idx → F .f32) (ix3 P Q (⟨9, by omega⟩ : Fin 32)) := by
  unfold res_main_v178 res_main_v1
  exact plane_of_band_apply (V0 (Proc.devRef .tc main_arg0) : S1024x2048x32.Idx → F .f32) 9 0 slices_S1024x2048x32_S1024x2048x23_0_0_9 slices_S1024x2048x23_S1024x2048x1_0_0_0 P Q _ rfl
theorem mLeaf1 : res_main_v179 V0 (ix3 P Q (0 : Fin 1)) = (V0 (Proc.devRef .tc main_arg0) : S1024x2048x32.Idx → F .f32) (ix3 P Q (⟨10, by omega⟩ : Fin 32)) := by
  unfold res_main_v179 res_main_v1
  exact plane_of_band_apply (V0 (Proc.devRef .tc main_arg0) : S1024x2048x32.Idx → F .f32) 9 1 slices_S1024x2048x32_S1024x2048x23_0_0_9 slices_S1024x2048x23_S1024x2048x1_0_0_1 P Q _ rfl
theorem mLeaf2 : res_main_v180 V0 (ix3 P Q (0 : Fin 1)) = (V0 (Proc.devRef .tc main_arg0) : S1024x2048x32.Idx → F .f32) (ix3 P Q (⟨11, by omega⟩ : Fin 32)) := by
  unfold res_main_v180 res_main_v1
  exact plane_of_band_apply (V0 (Proc.devRef .tc main_arg0) : S1024x2048x32.Idx → F .f32) 9 2 slices_S1024x2048x32_S1024x2048x23_0_0_9 slices_S1024x2048x23_S1024x2048x1_0_0_2 P Q _ rfl
theorem mLeaf3 : extractStridedSlice S1024x2048x1 ![0, 0, 3] (res_main_v1 V0) slices_S1024x2048x23_S1024x2048x1_0_0_3 (ix3 P Q (0 : Fin 1))
    = (V0 (Proc.devRef .tc main_arg0) : S1024x2048x32.Idx → F .f32) (ix3 P Q (⟨12, by omega⟩ : Fin 32)) := by
  unfold res_main_v1
  exact plane_of_band_apply (V0 (Proc.devRef .tc main_arg0) : S1024x2048x32.Idx → F .f32) 9 3 slices_S1024x2048x32_S1024x2048x23_0_0_9 slices_S1024x2048x23_S1024x2048x1_0_0_3 P Q _ rfl

/-! ## The ripple adder -/

/-- The carry out of bit 7, over the values before it. -/
theorem carryStage7 : res_main_v23 V0 (ix3 P Q (0 : Fin 1)) = carryBit (eB (F := F) V0 P Q 7) (not127 7) one := by
  show carryBit (res_main_v7 V0 (ix3 P Q (0 : Fin 1))) (res_main_v8 V0 (ix3 P Q (0 : Fin 1))) one = _
  rw [eLeaf7 V0 P Q, nLeaf7 V0 P Q]
  rfl
/-- The carry out of bit 6, over the values before it. -/
theorem carryStage6 : res_main_v40 V0 (ix3 P Q (0 : Fin 1)) = carryBit (eB (F := F) V0 P Q 6) (not127 6) (res_main_v23 V0 (ix3 P Q (0 : Fin 1))) := by
  show carryBit (res_main_v24 V0 (ix3 P Q (0 : Fin 1))) (res_main_v25 V0 (ix3 P Q (0 : Fin 1))) (res_main_v23 V0 (ix3 P Q (0 : Fin 1))) = _
  rw [eLeaf6 V0 P Q, nLeaf6 V0 P Q]
  rfl
/-- The carry out of bit 5, over the values before it. -/
theorem carryStage5 : res_main_v57 V0 (ix3 P Q (0 : Fin 1)) = carryBit (eB (F := F) V0 P Q 5) (not127 5) (res_main_v40 V0 (ix3 P Q (0 : Fin 1))) := by
  show carryBit (res_main_v41 V0 (ix3 P Q (0 : Fin 1))) (res_main_v42 V0 (ix3 P Q (0 : Fin 1))) (res_main_v40 V0 (ix3 P Q (0 : Fin 1))) = _
  rw [eLeaf5 V0 P Q, nLeaf5 V0 P Q]
  rfl
/-- The carry out of bit 4, over the values before it. -/
theorem carryStage4 : res_main_v74 V0 (ix3 P Q (0 : Fin 1)) = carryBit (eB (F := F) V0 P Q 4) (not127 4) (res_main_v57 V0 (ix3 P Q (0 : Fin 1))) := by
  show carryBit (res_main_v58 V0 (ix3 P Q (0 : Fin 1))) (res_main_v59 V0 (ix3 P Q (0 : Fin 1))) (res_main_v57 V0 (ix3 P Q (0 : Fin 1))) = _
  rw [eLeaf4 V0 P Q, nLeaf4 V0 P Q]
  rfl
/-- The carry out of bit 3, over the values before it. -/
theorem carryStage3 : res_main_v91 V0 (ix3 P Q (0 : Fin 1)) = carryBit (eB (F := F) V0 P Q 3) (not127 3) (res_main_v74 V0 (ix3 P Q (0 : Fin 1))) := by
  show carryBit (res_main_v75 V0 (ix3 P Q (0 : Fin 1))) (res_main_v76 V0 (ix3 P Q (0 : Fin 1))) (res_main_v74 V0 (ix3 P Q (0 : Fin 1))) = _
  rw [eLeaf3 V0 P Q, nLeaf3 V0 P Q]
  rfl
/-- The carry out of bit 2, over the values before it. -/
theorem carryStage2 : res_main_v108 V0 (ix3 P Q (0 : Fin 1)) = carryBit (eB (F := F) V0 P Q 2) (not127 2) (res_main_v91 V0 (ix3 P Q (0 : Fin 1))) := by
  show carryBit (res_main_v92 V0 (ix3 P Q (0 : Fin 1))) (res_main_v93 V0 (ix3 P Q (0 : Fin 1))) (res_main_v91 V0 (ix3 P Q (0 : Fin 1))) = _
  rw [eLeaf2 V0 P Q, nLeaf2 V0 P Q]
  rfl
/-- The carry out of bit 1, over the values before it. -/
theorem carryStage1 : res_main_v125 V0 (ix3 P Q (0 : Fin 1)) = carryBit (eB (F := F) V0 P Q 1) (not127 1) (res_main_v108 V0 (ix3 P Q (0 : Fin 1))) := by
  show carryBit (res_main_v109 V0 (ix3 P Q (0 : Fin 1))) (res_main_v110 V0 (ix3 P Q (0 : Fin 1))) (res_main_v108 V0 (ix3 P Q (0 : Fin 1))) = _
  rw [eLeaf1 V0 P Q, nLeaf1 V0 P Q]
  rfl

/-- Bit 7 of the sum, over the values before it. -/
theorem sumStage7 : res_main_v18 V0 (ix3 P Q (0 : Fin 1)) = sumBit (eB (F := F) V0 P Q 7) (not127 7) one := by
  show sumBit (res_main_v7 V0 (ix3 P Q (0 : Fin 1))) (res_main_v8 V0 (ix3 P Q (0 : Fin 1))) one = _
  rw [eLeaf7 V0 P Q, nLeaf7 V0 P Q]
  rfl
/-- Bit 6 of the sum, over the values before it. -/
theorem sumStage6 : res_main_v35 V0 (ix3 P Q (0 : Fin 1)) = sumBit (eB (F := F) V0 P Q 6) (not127 6) (res_main_v23 V0 (ix3 P Q (0 : Fin 1))) := by
  show sumBit (res_main_v24 V0 (ix3 P Q (0 : Fin 1))) (res_main_v25 V0 (ix3 P Q (0 : Fin 1))) (res_main_v23 V0 (ix3 P Q (0 : Fin 1))) = _
  rw [eLeaf6 V0 P Q, nLeaf6 V0 P Q]
  rfl
/-- Bit 5 of the sum, over the values before it. -/
theorem sumStage5 : res_main_v52 V0 (ix3 P Q (0 : Fin 1)) = sumBit (eB (F := F) V0 P Q 5) (not127 5) (res_main_v40 V0 (ix3 P Q (0 : Fin 1))) := by
  show sumBit (res_main_v41 V0 (ix3 P Q (0 : Fin 1))) (res_main_v42 V0 (ix3 P Q (0 : Fin 1))) (res_main_v40 V0 (ix3 P Q (0 : Fin 1))) = _
  rw [eLeaf5 V0 P Q, nLeaf5 V0 P Q]
  rfl

/-! ## The tests on the sum -/

/-- The test on the sum's high five bits, each written out over its carry. -/
theorem hiStage : res_main_v162 V0 (ix3 P Q (0 : Fin 1)) = gand (gand (gand (gand (gnot (sumBit (eB (F := F) V0 P Q 0) (not127 0) (res_main_v125 V0 (ix3 P Q (0 : Fin 1))))) (gnot (sumBit (eB (F := F) V0 P Q 1) (not127 1) (res_main_v108 V0 (ix3 P Q (0 : Fin 1)))))) (gnot (sumBit (eB (F := F) V0 P Q 2) (not127 2) (res_main_v91 V0 (ix3 P Q (0 : Fin 1)))))) (gnot (sumBit (eB (F := F) V0 P Q 3) (not127 3) (res_main_v74 V0 (ix3 P Q (0 : Fin 1)))))) (gnot (sumBit (eB (F := F) V0 P Q 4) (not127 4) (res_main_v57 V0 (ix3 P Q (0 : Fin 1))))) := by
  show gand (gand (gand (gand (gnot (sumBit (res_main_v126 V0 (ix3 P Q (0 : Fin 1))) (res_main_v127 V0 (ix3 P Q (0 : Fin 1))) (res_main_v125 V0 (ix3 P Q (0 : Fin 1))))) (gnot (sumBit (res_main_v109 V0 (ix3 P Q (0 : Fin 1))) (res_main_v110 V0 (ix3 P Q (0 : Fin 1))) (res_main_v108 V0 (ix3 P Q (0 : Fin 1)))))) (gnot (sumBit (res_main_v92 V0 (ix3 P Q (0 : Fin 1))) (res_main_v93 V0 (ix3 P Q (0 : Fin 1))) (res_main_v91 V0 (ix3 P Q (0 : Fin 1)))))) (gnot (sumBit (res_main_v75 V0 (ix3 P Q (0 : Fin 1))) (res_main_v76 V0 (ix3 P Q (0 : Fin 1))) (res_main_v74 V0 (ix3 P Q (0 : Fin 1)))))) (gnot (sumBit (res_main_v58 V0 (ix3 P Q (0 : Fin 1))) (res_main_v59 V0 (ix3 P Q (0 : Fin 1))) (res_main_v57 V0 (ix3 P Q (0 : Fin 1))))) = _
  rw [eLeaf0 V0 P Q, nLeaf0 V0 P Q, eLeaf1 V0 P Q, nLeaf1 V0 P Q, eLeaf2 V0 P Q, nLeaf2 V0 P Q, eLeaf3 V0 P Q, nLeaf3 V0 P Q, eLeaf4 V0 P Q, nLeaf4 V0 P Q]
  rfl

/-- The sum is 0, over the values before it. -/
theorem shiftStage0 : res_main_v165 V0 (ix3 P Q (0 : Fin 1)) = gand (res_main_v162 V0 (ix3 P Q (0 : Fin 1))) (gand (gnot (res_main_v52 V0 (ix3 P Q (0 : Fin 1)))) (gand (gnot (res_main_v35 V0 (ix3 P Q (0 : Fin 1)))) (gnot (res_main_v18 V0 (ix3 P Q (0 : Fin 1)))))) := rfl
/-- The sum is 1, over the values before it. -/
theorem shiftStage1 : res_main_v168 V0 (ix3 P Q (0 : Fin 1)) = gand (res_main_v162 V0 (ix3 P Q (0 : Fin 1))) (gand (gnot (res_main_v52 V0 (ix3 P Q (0 : Fin 1)))) (gand (gnot (res_main_v35 V0 (ix3 P Q (0 : Fin 1)))) (res_main_v18 V0 (ix3 P Q (0 : Fin 1))))) := rfl
/-- The sum is 2, over the values before it. -/
theorem shiftStage2 : res_main_v171 V0 (ix3 P Q (0 : Fin 1)) = gand (res_main_v162 V0 (ix3 P Q (0 : Fin 1))) (gand (gnot (res_main_v52 V0 (ix3 P Q (0 : Fin 1)))) (gand (res_main_v35 V0 (ix3 P Q (0 : Fin 1))) (gnot (res_main_v18 V0 (ix3 P Q (0 : Fin 1)))))) := rfl
/-- The sum is 3, over the values before it. -/
theorem shiftStage3 : res_main_v174 V0 (ix3 P Q (0 : Fin 1)) = gand (res_main_v162 V0 (ix3 P Q (0 : Fin 1))) (gand (gnot (res_main_v52 V0 (ix3 P Q (0 : Fin 1)))) (gand (res_main_v35 V0 (ix3 P Q (0 : Fin 1))) (res_main_v18 V0 (ix3 P Q (0 : Fin 1))))) := rfl
/-- The sum is 4, over the values before it. -/
theorem shiftStage4 : res_main_v177 V0 (ix3 P Q (0 : Fin 1)) = gand (res_main_v162 V0 (ix3 P Q (0 : Fin 1))) (gand (res_main_v52 V0 (ix3 P Q (0 : Fin 1))) (gand (gnot (res_main_v35 V0 (ix3 P Q (0 : Fin 1)))) (gnot (res_main_v18 V0 (ix3 P Q (0 : Fin 1)))))) := rfl

/-! ## The routing -/

/-- EACH PLANE the reference concatenates, at `(P, Q, 0)`, is that output bit of the network on the argument's numbers
    at `(P, Q)`: the stages above are the network's, and the planes are the routing of the shift tests and the
    mantissa bits. -/
theorem pieces_apply (c : Fin 5) :
    pieces V0 c (ix3 P Q (0 : Fin 1)) = lowBits (eB V0 P Q) not127 (mB V0 P Q) c := by
  refine Eq.trans ?_ (congrFun (lowBits_of_stages (eB V0 P Q) not127 (mB V0 P Q)
    (carryStage7 V0 P Q) (carryStage6 V0 P Q) (carryStage5 V0 P Q) (carryStage4 V0 P Q) (carryStage3 V0 P Q)
    (carryStage2 V0 P Q) (carryStage1 V0 P Q) (sumStage7 V0 P Q) (sumStage6 V0 P Q) (sumStage5 V0 P Q) (hiStage V0 P Q)
    (shiftStage0 V0 P Q) (shiftStage1 V0 P Q) (shiftStage2 V0 P Q) (shiftStage3 V0 P Q) (shiftStage4 V0 P Q)) c)
  match c with
  | ⟨0, _⟩ => rfl
  | ⟨1, _⟩ =>
    show gor (res_main_v174 V0 (ix3 P Q (0 : Fin 1))) (gand (res_main_v177 V0 (ix3 P Q (0 : Fin 1))) (res_main_v178 V0 (ix3 P Q (0 : Fin 1)))) = _
    rw [mLeaf0 V0 P Q]
    rfl
  | ⟨2, _⟩ =>
    show gor (gor (res_main_v171 V0 (ix3 P Q (0 : Fin 1))) (gand (res_main_v174 V0 (ix3 P Q (0 : Fin 1))) (res_main_v178 V0 (ix3 P Q (0 : Fin 1))))) (gand (res_main_v177 V0 (ix3 P Q (0 : Fin 1))) (res_main_v179 V0 (ix3 P Q (0 : Fin 1)))) = _
    rw [mLeaf0 V0 P Q, mLeaf1 V0 P Q]
    rfl
  | ⟨3, _⟩ =>
    show gor (gor (gor (res_main_v168 V0 (ix3 P Q (0 : Fin 1))) (gand (res_main_v171 V0 (ix3 P Q (0 : Fin 1))) (res_main_v178 V0 (ix3 P Q (0 : Fin 1))))) (gand (res_main_v174 V0 (ix3 P Q (0 : Fin 1))) (res_main_v179 V0 (ix3 P Q (0 : Fin 1))))) (gand (res_main_v177 V0 (ix3 P Q (0 : Fin 1))) (res_main_v180 V0 (ix3 P Q (0 : Fin 1)))) = _
    rw [mLeaf0 V0 P Q, mLeaf1 V0 P Q, mLeaf2 V0 P Q]
    rfl
  | ⟨4, _⟩ =>
    show gor (gor (gor (gor (res_main_v165 V0 (ix3 P Q (0 : Fin 1))) (gand (res_main_v168 V0 (ix3 P Q (0 : Fin 1))) (res_main_v178 V0 (ix3 P Q (0 : Fin 1))))) (gand (res_main_v171 V0 (ix3 P Q (0 : Fin 1))) (res_main_v179 V0 (ix3 P Q (0 : Fin 1))))) (gand (res_main_v174 V0 (ix3 P Q (0 : Fin 1))) (res_main_v180 V0 (ix3 P Q (0 : Fin 1))))) (gand (res_main_v177 V0 (ix3 P Q (0 : Fin 1))) (extractStridedSlice S1024x2048x1 ![0, 0, 3] (res_main_v1 V0) slices_S1024x2048x23_S1024x2048x1_0_0_3 (ix3 P Q (0 : Fin 1)))) = _
    rw [mLeaf0 V0 P Q, mLeaf1 V0 P Q, mLeaf2 V0 P Q, mLeaf3 V0 P Q]
    rfl

end Stages

end Cert.ReferenceIdeal.Hand

end
-- ==== Proof.RefValue.lean ====
import proofs.«112993_j76312978916072_2_alg».proof.Proof.RefPlanes
import proofs.«112993_j76312978916072_2_alg».proof.Proof.Spec
import Idealize.ShloMosaic.Lib.Pipeline.Value
import Idealize.ShloMosaic.Lib.ValueIdx

/-!
# The reference's result is the network, position by position

The reference's result is its five planes side by side along the last axis (Proof/RefPlanes.lean says what each
plane holds at a position). So element `(P, Q, c)` of the result is plane `c` at `(P, Q, 0)`: output bit `c` of the
network on the argument's numbers at `(P, Q)`, which is `extractLow5` of the argument at `(P, Q, c)`.
-/

set_option maxRecDepth 16384

noncomputable section

namespace Cert.ReferenceIdeal.Hand

open Cert.ReferenceIdeal Cert.ReferenceIdeal.Gen Cert.ReferenceIdeal.Value Cert.SpikeLogic
open Idealize.ShloMosaic Idealize.ShloMosaic.ValueIdx Idealize.ShloMosaic.StableHlo

variable {F : FTy → Type} [FloatOps F]

attribute [local irreducible] res_main_v5

/-- The reference's result, as the run states it, at `(P, Q, c)`: output bit `c` of the network on the argument's
    numbers at `(P, Q)`. -/
theorem result_apply (V0 : Valuation τ sig (Elt F)) (P : Fin 1024) (Q : Fin 2048) (c : Fin 5) :
    concatenate S1024x2048x5 2 [⟨S1024x2048x1, (res_main_v177 V0)⟩, ⟨S1024x2048x1, (subf (addf (res_main_v174 V0) (res_main_v218 V0)) (mulf (res_main_v174 V0) (res_main_v218 V0)))⟩, ⟨S1024x2048x1, (subf (addf (res_main_v214 V0) (res_main_v211 V0)) (mulf (res_main_v214 V0) (res_main_v211 V0)))⟩, ⟨S1024x2048x1, (subf (addf (res_main_v206 V0) (res_main_v200 V0)) (mulf (res_main_v206 V0) (res_main_v200 V0)))⟩, ⟨S1024x2048x1, (subf (addf (res_main_v194 V0) (res_main_v185 V0)) (mulf (res_main_v194 V0) (res_main_v185 V0)))⟩] concatenates_S1024x2048x1_S1024x2048x1_S1024x2048x1_S1024x2048x1_S1024x2048x1_S1024x2048x5_d2 (ix3 P Q c)
      = extractLow5 (V0 (Proc.devRef .tc main_arg0) : S1024x2048x32.Idx → F .f32) (ix3 P Q c) := by
  show concatenate S1024x2048x5 2 (List.ofFn fun n : Fin 5 => (⟨S1024x2048x1, pieces V0 n⟩ : (s : Shape) × (s.Idx → F .f32))) _
      (ix3 P Q c) = _
  refine (concatenate_ofFn_unit_apply (t := S1024x2048x5) (s₁ := S1024x2048x1) (2 : Fin 3) (pieces V0) _ rfl rfl (ix3 P Q c) c rfl
    (ix3 P Q (0 : Fin 1)) (fun b hb => by
      match b with
      | ⟨0, _⟩ => rfl
      | ⟨1, _⟩ => rfl
      | ⟨2, _⟩ => exact absurd rfl hb)).trans ?_
  rw [pieces_apply V0 P Q c]
  rfl

/-- THE REFERENCE'S RESULT, as the run states it, is `extractLow5` of the argument. -/
theorem result_eq (V0 : Valuation τ sig (Elt F)) :
    concatenate S1024x2048x5 2 [⟨S1024x2048x1, (res_main_v177 V0)⟩, ⟨S1024x2048x1, (subf (addf (res_main_v174 V0) (res_main_v218 V0)) (mulf (res_main_v174 V0) (res_main_v218 V0)))⟩, ⟨S1024x2048x1, (subf (addf (res_main_v214 V0) (res_main_v211 V0)) (mulf (res_main_v214 V0) (res_main_v211 V0)))⟩, ⟨S1024x2048x1, (subf (addf (res_main_v206 V0) (res_main_v200 V0)) (mulf (res_main_v206 V0) (res_main_v200 V0)))⟩, ⟨S1024x2048x1, (subf (addf (res_main_v194 V0) (res_main_v185 V0)) (mulf (res_main_v194 V0) (res_main_v185 V0)))⟩] concatenates_S1024x2048x1_S1024x2048x1_S1024x2048x1_S1024x2048x1_S1024x2048x1_S1024x2048x5_d2
      = extractLow5 (V0 (Proc.devRef .tc main_arg0) : S1024x2048x32.Idx → F .f32) := by
  funext i
  exact (congrArg _ (eq_ix3 i)).trans ((result_apply V0 (i 0) (i 1) (i 2)).trans (congrArg _ (eq_ix3 i).symm))

end Cert.ReferenceIdeal.Hand

end
-- ==== Proof.lean ====
/-
  The five bits a spiking-logic circuit extracts from a float's exponent and mantissa: kernel against reference.

  The argument is an array of bit planes, `[1024, 2048, 32]`: at each position the 32 bits of a float32 word as
  numbers, most significant first. Both programs run the same network of gates — NOT as `1 - a`, AND as `a * b`,
  OR as `a + b - a * b`, XOR as `a + b - 2 * a * b` — on the exponent planes (1 … 8) and the top four mantissa planes
  (9 … 12): a ripple adder subtracts 127 from the exponent, the shifts 0 … 4 are recognised from the difference,
  and the leading one and the mantissa bits are routed to five output planes (Proof/Gates.lean, Proof/Spec.lean:
  `extractLow5`).

  The kernel does this block by block over a `32 × 32` grid, on `[32, 64, ·]` blocks, with the bits of the
  complement of 127 as constants; its blocks tile the result, and every gate is pointwise, so the result array is
  `extractLow5` of the argument (Proof/KernelBlock.lean, Proof/KernelValue.lean). The reference does it on whole
  planes and takes the complement's bits as planes of a mask array — zeros with ones scattered onto plane 0 —, which
  read back as the same constants (Proof/LibScatterSet.lean, Proof/RefValue.lean). The operations and their order
  agree, so the two results are ONE function of the argument over the extended reals: no algebraic law joins them
  and the precondition is not used. The idealization rewrote nothing, so `preserves` is trivial.
-/
import proofs.«112993_j76312978916072_2_alg».proof.Defs
import proofs.«112993_j76312978916072_2_alg».proof.Proof.Gen.Kernel
import proofs.«112993_j76312978916072_2_alg».proof.Proof.Gen.Kernel.Skeleton
import proofs.«112993_j76312978916072_2_alg».proof.Proof.Gen.Kernel.Launch
import proofs.«112993_j76312978916072_2_alg».proof.Proof.Gen.Kernel.Points
import proofs.«112993_j76312978916072_2_alg».proof.Proof.Gen.Kernel.Frame
import proofs.«112993_j76312978916072_2_alg».proof.Proof.Gen.KernelIdeal
import proofs.«112993_j76312978916072_2_alg».proof.Proof.Gen.KernelIdeal.Skeleton
import proofs.«112993_j76312978916072_2_alg».proof.Proof.Gen.KernelIdeal.Launch
import proofs.«112993_j76312978916072_2_alg».proof.Proof.Gen.KernelIdeal.Points
import proofs.«112993_j76312978916072_2_alg».proof.Proof.Gen.KernelIdeal.Frame
import proofs.«112993_j76312978916072_2_alg».proof.Proof.Gen.ReferenceIdeal
import proofs.«112993_j76312978916072_2_alg».proof.Proof.Gen.Pre_finite_inputs
import proofs.«112993_j76312978916072_2_alg».proof.Proof.Gen.ReferenceIdeal.Run
import proofs.«112993_j76312978916072_2_alg».proof.Proof.KernelValue
import proofs.«112993_j76312978916072_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its argument unchanged. -/
theorem frame_k : Cert.frame_Kernel := fun m ρ _ => Cert.Kernel.Gen.frame m ρ

/-- The idealized kernel runs and leaves its argument unchanged. -/
theorem frame_ki : Cert.frame_KernelIdeal := fun m ρ _ => Cert.KernelIdeal.Gen.frame m ρ

/-- The reference runs and leaves its argument unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at `extractLow5` of the (shared) argument array. -/
theorem algebraic : Cert.algebraic_KernelIdeal_ReferenceIdeal := by
  intro m ρ m' ρ' _ hagree
  refine ⟨fun c => Cert.SpikeLogic.extractLow5 (F := Ideal)
      (m ((c.tc : Thread Cert.KernelIdeal.nD Cert.KernelIdeal.τ).loc Cert.KernelIdeal.main_arg0)),
    Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Hand.result_eq]
  exact congrArg (Cert.SpikeLogic.extractLow5 (F := Ideal)) (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
